-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x4096x8 : Shape := ⟨3, ![8, 4096, 8]⟩
abbrev S8x8x4096 : Shape := ⟨3, ![8, 8, 4096]⟩
abbrev S8x1x128 : Shape := ⟨3, ![8, 1, 128]⟩
abbrev S1x4096x8 : Shape := ⟨3, ![1, 4096, 8]⟩
abbrev S1x8x4096 : Shape := ⟨3, ![1, 8, 4096]⟩
abbrev S1x1x128 : Shape := ⟨3, ![1, 1, 128]⟩
abbrev S4096x128 : Shape := ⟨2, ![4096, 128]⟩
abbrev S1x256x8 : Shape := ⟨3, ![1, 256, 8]⟩
abbrev S256x8 : Shape := ⟨2, ![256, 8]⟩
abbrev S8x512 : Shape := ⟨2, ![8, 512]⟩
abbrev S256x512 : Shape := ⟨2, ![256, 512]⟩
abbrev S256x128 : Shape := ⟨2, ![256, 128]⟩
abbrev S4096 : Shape := ⟨1, ![4096]⟩
abbrev S1x4096 : Shape := ⟨2, ![1, 4096]⟩
abbrev S1 : Shape := ⟨1, ![1]⟩
abbrev S1x1 : Shape := ⟨2, ![1, 1]⟩
abbrev S1x128 : Shape := ⟨2, ![1, 128]⟩
abbrev S8x1x1 : Shape := ⟨3, ![8, 1, 1]⟩
abbrev S8 : Shape := ⟨1, ![8]⟩

abbrev nBuf : Space → Nat
  | .hbm => 45
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x4096x1, .bf16⟩
  | .hbm, ⟨11, _⟩ => ⟨S8x4096x1, .f32⟩
  | .hbm, ⟨12, _⟩ => ⟨S8x4096x1, .f32⟩
  | .hbm, ⟨13, _⟩ => ⟨S8x4096x1, .bf16⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x8, .f32⟩
  | .hbm, ⟨25, _⟩ => ⟨S_, .f32⟩
  | .hbm, ⟨26, _⟩ => ⟨S8x4096x3, .f32⟩
  | .hbm, ⟨27, _⟩ => ⟨S8x4096x3, .f32⟩
  | .hbm, ⟨28, _⟩ => ⟨S8x4096x8, .f32⟩
  | .hbm, ⟨29, _⟩ => ⟨S8x8x4096, .f32⟩
  | .hbm, ⟨30, _⟩ => ⟨S8x1x128, .f32⟩
  | .hbm, ⟨31, _⟩ => ⟨S8x1x128, .f32⟩
  | .hbm, ⟨32, _⟩ => ⟨S8x1x1, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8x1x1, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S1x4096x8, .f32⟩
  | .local _ .vmem, ⟨1, _⟩ => ⟨S1x4096x8, .f32⟩
  | .local _ .vmem, ⟨2, _⟩ => ⟨S1x8x4096, .f32⟩
  | .local _ .vmem, ⟨3, _⟩ => ⟨S1x8x4096, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S4096x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_off1 (k0_t1 : Fin k0_t1_loop.trips) : Fin 3 → Nat :=
  let c0_17 : Index := 0#32
  let c0_i32 : BitVec 32 := 0#32
  let c1_i32 : BitVec 32 := 1#32
  let arg6 : BitVec 32 := Scf.iv c0_i32 c1_i32 k0_t1
  let c256_i32 : BitVec 32 := 256#32
  let v28 : BitVec 32 := Scalar.muli arg6 c256_i32
  let v29 : Index := Scalar.indexCast v28
  let c0_18 : Index := 0#32
  ![0, v29.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32_27 : BitVec 32 := 256#32
  let v615 : BitVec 32 := Scalar.muli arg6 c256_i32_27
  let v616 : Index := Scalar.indexCast v615
  let c0_28 : Index := 0#32
  ![v616.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bitsLt_bf16_f32 : FTy.bits .bf16 < FTy.bits .f32
  bcast_S_S8x4096x1 : S_.BroadcastsInDim S8x4096x1 (![] : Fin 0 → Fin S8x4096x1.rank)
  concatenates_S8x4096x3_S8x4096x1_S8x4096x1_S8x4096x1_S8x4096x1_S8x4096x1_S8x4096x8_d2 : Shape.Concatenates [S8x4096x3, S8x4096x1, S8x4096x1, S8x4096x1, S8x4096x1, S8x4096x1] S8x4096x8 2
  bcast_S_S8x4096x3 : S_.BroadcastsInDim S8x4096x3 (![] : Fin 0 → Fin S8x4096x3.rank)
  transposes_S8x4096x8_S8x8x4096_0_2_1 : S8x4096x8.Transposes [0, 2, 1] S8x8x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  h_S1x256x8 : 0 < S1x256x8.numel
  shapeCasts_S1x256x8_S256x8 : S1x256x8.ShapeCasts S256x8
  slices_S8x4096_o0_0_S8x512 : S8x4096.Slices ![0, 0] S8x512
  slices_S256x512_o0_0_S256x128 : S256x512.Slices ![0, 0] S256x128
  slices_S256x512_o0_128_S256x128 : S256x512.Slices ![0, 128] S256x128
  slices_S256x512_o0_256_S256x128 : S256x512.Slices ![0, 256] S256x128
  slices_S256x512_o0_384_S256x128 : S256x512.Slices ![0, 384] S256x128
  slices_S256x512_o0_0_S8x512 : S256x512.Slices ![0, 0] S8x512
  slices_S256x512_o8_0_S8x512 : S256x512.Slices ![8, 0] S8x512
  slices_S256x512_o16_0_S8x512 : S256x512.Slices ![16, 0] S8x512
  slices_S256x512_o24_0_S8x512 : S256x512.Slices ![24, 0] S8x512
  slices_S256x512_o32_0_S8x512 : S256x512.Slices ![32, 0] S8x512
  slices_S256x512_o40_0_S8x512 : S256x512.Slices ![40, 0] S8x512
  slices_S256x512_o48_0_S8x512 : S256x512.Slices ![48, 0] S8x512
  slices_S256x512_o56_0_S8x512 : S256x512.Slices ![56, 0] S8x512
  slices_S256x512_o64_0_S8x512 : S256x512.Slices ![64, 0] S8x512
  slices_S256x512_o72_0_S8x512 : S256x512.Slices ![72, 0] S8x512
  slices_S256x512_o80_0_S8x512 : S256x512.Slices ![80, 0] S8x512
  slices_S256x512_o88_0_S8x512 : S256x512.Slices ![88, 0] S8x512
  slices_S256x512_o96_0_S8x512 : S256x512.Slices ![96, 0] S8x512
  slices_S256x512_o104_0_S8x512 : S256x512.Slices ![104, 0] S8x512
  slices_S256x512_o112_0_S8x512 : S256x512.Slices ![112, 0] S8x512
  slices_S256x512_o120_0_S8x512 : S256x512.Slices ![120, 0] S8x512
  slices_S256x512_o128_0_S8x512 : S256x512.Slices ![128, 0] S8x512
  slices_S256x512_o136_0_S8x512 : S256x512.Slices ![136, 0] S8x512
  slices_S256x512_o144_0_S8x512 : S256x512.Slices ![144, 0] S8x512
  slices_S256x512_o152_0_S8x512 : S256x512.Slices ![152, 0] S8x512
  slices_S256x512_o160_0_S8x512 : S256x512.Slices ![160, 0] S8x512
  slices_S256x512_o168_0_S8x512 : S256x512.Slices ![168, 0] S8x512
  slices_S256x512_o176_0_S8x512 : S256x512.Slices ![176, 0] S8x512
  slices_S256x512_o184_0_S8x512 : S256x512.Slices ![184, 0] S8x512
  slices_S256x512_o192_0_S8x512 : S256x512.Slices ![192, 0] S8x512
  slices_S256x512_o200_0_S8x512 : S256x512.Slices ![200, 0] S8x512
  slices_S256x512_o208_0_S8x512 : S256x512.Slices ![208, 0] S8x512
  slices_S256x512_o216_0_S8x512 : S256x512.Slices ![216, 0] S8x512
  slices_S256x512_o224_0_S8x512 : S256x512.Slices ![224, 0] S8x512
  slices_S256x512_o232_0_S8x512 : S256x512.Slices ![232, 0] S8x512
  slices_S256x512_o240_0_S8x512 : S256x512.Slices ![240, 0] S8x512
  slices_S256x512_o248_0_S8x512 : S256x512.Slices ![248, 0] S8x512
  slices_S8x4096_o0_512_S8x512 : S8x4096.Slices ![0, 512] S8x512
  slices_S8x4096_o0_1024_S8x512 : S8x4096.Slices ![0, 1024] S8x512
  slices_S8x4096_o0_1536_S8x512 : S8x4096.Slices ![0, 1536] S8x512
  slices_S8x4096_o0_2048_S8x512 : S8x4096.Slices ![0, 2048] S8x512
  slices_S8x4096_o0_2560_S8x512 : S8x4096.Slices ![0, 2560] S8x512
  slices_S8x4096_o0_3072_S8x512 : S8x4096.Slices ![0, 3072] S8x512
  slices_S8x4096_o0_3584_S8x512 : S8x4096.Slices ![0, 3584] S8x512
  h_S256x128 : 0 < S256x128.numel
  shapeCasts_S256x128_S256x128 : S256x128.ShapeCasts S256x128
  concatenates_S8x512_S8x512_S8x512_S8x512_S8x512_S8x512_S8x512_S8x512_S8x4096_d1 : Shape.Concatenates [S8x512, S8x512, S8x512, S8x512, S8x512, S8x512, S8x512, S8x512] S8x4096 1
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S1x4096 : S4096.ShapeCasts S1x4096
  reduces_S1x4096_S1 : S1x4096.Reduces [1] S1
  shapeCasts_S1_S1x1 : S1.ShapeCasts S1x1
  inpos_S1x1_p0_0 : ∀ a, (![0, 0] : Fin 2 → Nat) a < S1x1.size a
  reduces_S8x4096_S4096 : S8x4096.Reduces [0] S4096
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8x1x128_S8x1x1_0_0_0 : S8x1x128.Slices ![0, 0, 0] S8x1x1
  shapeCasts_S8x1x1_S8 : S8x1x1.ShapeCasts S8
  reducesTo_S8_S_d0 : S8.ReducesTo [0] S_
  dot_S256x8_S8x512_S256x512_1_0_0_1_n_n_wf : DotDims.WF S256x8 S8x512 S256x512 [1] [0] [0] [1] [] []
  hrank0 : 0 < grid0.rank
  k0_t1_ok : k0_t1_loop.OK
  k0_off1_inb : ∀ k0_t1 : Fin k0_t1_loop.trips, ∀ a, (k0_off1 k0_t1) a + S1x256x8.size a ≤ S1x4096x8.size a
  k0_off2_inb : ∀ k0_t1 : Fin k0_t1_loop.trips, ∀ a, (k0_off2 k0_t1) a + S256x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x8.size a ≤ S8x4096x8.size a
  hwx0_0 : ∀ i : grid0.Coords, EltTy.bits .f32 = 32 ∨ (Rect.block (s := S8x4096x8) S1x4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x4096.size a ≤ S8x8x4096.size a
  hwx0_1 : ∀ i : grid0.Coords, EltTy.bits .f32 = 32 ∨ (Rect.block (s := S8x8x4096) S1x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)

variable [Facts₀]

def dot_S256x8_S8x512_S256x512_1_0_0_1_n_n : DotDims S256x8 S8x512 S256x512 where
  lhsContracting := [1]
  rhsContracting := [0]
  lhsNonContracting := [0]
  rhsNonContracting := [1]
  lhsBatch := []
  rhsBatch := []
  wf := dot_S256x8_S8x512_S256x512_1_0_0_1_n_n_wf

abbrev win0_0 : Pipeline.Window sig grid0 :=
  Pipeline.Window.ofSpec (Memref.whole main_v16) S1x4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.EntryBits.lean ====
/-
  The host side of the program around its one pipelined region. Before the region the program computes, from the two
  point clouds, the augmented coordinate arrays the region reads; after it, it averages what the region wrote. Here:
  the contents of every buffer when the region is entered, as the earlier host operations leave them; that the
  program is those operations, the region, and the later operations in sequence; that the later operations touch
  only buffers outside the region's staging, allocate nothing and write none of the region's four arrays; and that
  neither stretch of host operations writes an argument array, so both end as launched.
-/
import proofs.«119373_g85555748536873_cont_9to1_m_146_14_alg».proof.Proof.Gen.Kernel.Launch
import proofs.«119373_g85555748536873_cont_9to1_m_146_14_alg».proof.Proof.Gen.Kernel.Skeleton
import proofs.«119373_g85555748536873_cont_9to1_m_146_14_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at region entry -/

/-- Core `c`'s buffers when the region is entered: the launch contents run through the host operations before it. -/
abbrev entry0 (c : Dev nD) : Valuation τ sig (Elt F) := StableHlo.after (List.flatten [hostOps0]) (fun b => m (c, b))
/-- The same, read at one TensorCore buffer. -/
abbrev entry (c : Dev nD) (b : Ref sig .tc) : Buf (Elt F) ((c : Thread nD τ).loc b) := entry0 m c (Proc.devRef .tc b)

/-- The host operations before the region allocate nothing. -/
theorem before_fresh : (hostOps0 : List (HloOp τ sig (Elt F))).Forall fun op => op.fresh = ∅ := by
  simp only [List.Forall]; repeat' constructor
/-- Nor do those after it. -/
theorem after_fresh : (hostOps1 : List (HloOp τ sig (Elt F))).Forall fun op => op.fresh = ∅ := by
  simp only [List.Forall]; repeat' constructor

/-- The program is: the earlier host operations, the region, the later host operations. From the launch contents it
    therefore reduces to the region, entered at `entry`, continued by the later operations. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The later operations touch only the region's arrays and buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- Each writes only its own result buffer, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The argument arrays are never written -/

/-- No host operation before the region writes the first cloud: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second cloud. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the first cloud either, and it is none of the region's arrays: it
    ends as launched, whatever the region's proof data. -/
theorem exit_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (entry0 m c) _ main_arg0 (by exact (by decide : ∀ w, Pipeline.arrRef spec0 w ≠ main_arg0))]
  exact entry_arg0 m c
/-- The same for the second cloud. -/
theorem exit_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (entry0 m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not, for any proof
    data whose array is the region-entry one and whose body leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region's frame -/

/-- For any proof data whose arrays are the region-entry contents, a run ending with every buffer that bypasses the
    region as the later host operations leave it ends with both argument arrays as launched. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c)⟩) h

end Cert.Kernel.Hand

end
-- ==== Proof.BodyBits.lean ====
/-
  The kernel body at one grid point (one batch entry), and the program's run around it. The body loads the whole
  block of the second cloud's augmented coordinates, then in 16 trips takes 256 rows of the first cloud's augmented
  coordinates at a time: each trip multiplies its rows against the columns in 8 chunks of 512, stores the rows'
  running minima over lane groups into 256 rows of a scratch buffer, and carries the columns' running minima over
  sublane groups in a register value. After the loop it reduces the scratch along lanes and the carried value along
  sublanes, clamps at zero, sums, and stores each sum splat into a result block. Here: the trips' 16 row blocks tile
  the scratch, so what the scratch holds after the loop does not depend on what it held before; the two result
  blocks as named values of the two input blocks; the body's run; and the run of the whole program, which ends with
  each result array block by block at those values and every other buffer as the later host operations leave it.
-/
import proofs.«119373_g85555748536873_cont_9to1_m_146_14_alg».proof.Proof.EntryBits
import proofs.«119373_g85555748536873_cont_9to1_m_146_14_alg».proof.Proof.Gen.Kernel.Loops

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's whole-buffer accesses -/

/-- The whole block of the second operand. -/
abbrev rCols : Rect S1x8x4096 := Rect.unit (s := S1x8x4096) ![0, 0, 0] S1x8x4096.size inb_S1x8x4096_S1x8x4096_0_0_0
/-- A whole result block. -/
abbrev rRes : Rect S1x1x128 := Rect.unit (s := S1x1x128) ![0, 0, 0] S1x1x128.size inb_S1x1x128_S1x1x128_0_0_0
/-- The whole scratch. -/
abbrev rScr : Rect S4096x128 := Rect.unit (s := S4096x128) ![0, 0] S4096x128.size inb_S4096x128_S4096x128_0_0

/-- One buffer of the scratch's shape, through which the scratch's contents after the loop are stated (the choice
    does not matter once the stores cover it). -/
abbrev scrView : View sig .tc .vmem S4096x128 .f32 := (Memref.whole cc0_scratch0 : Memref sig .tc .vmem S4096x128 .f32).view

/-- Each window's current staging memref at point `t`, as the pipeline passes it to the body, and its wholeness. -/
abbrev stg0 (t : Fin cfg0.N) : Memref sig .tc .vmem S1x4096x8 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x8x4096 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x1x128 .f32 := win0_3.stage (cfg0.slots t 3)
abbrev hstg3 (t : Fin cfg0.N) : (stg3 t).IsWhole := hstage0_3 ((cfg0.slots t 3).cast nbuf0_3)
abbrev scr : Memref sig .tc .vmem S4096x128 .f32 := Memref.whole cc0_scratch0
abbrev hscr : (scr).IsWhole := Memref.isWhole_whole _

/-! ## What the loop leaves -/

section Loop

variable (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
  (x0 : Vec F S1x4096x8 .f32) (x1 : Vec F S1x8x4096 .f32)

/-- The loop's state after its last trip, from the carried value all `+∞`: the carried column minima, and the row
    blocks the trips stored into the scratch (last first). -/
abbrev loopEnd : (FVec F S8x4096 .f32) × List (View.Piece (Elt F) S4096x128 .f32) :=
  st_k0_t1 Variants.none c none i arg1 harg1 arg2 harg2 arg3 harg3 arg4 harg4 arg5 harg5
    (View.readAt (Elt F) arg2.view rCols.toLoadRect (harg2.unread x1)) (harg1.unread x0) k0_pay2
    (Scf.trips k0_t1_loop.lb k0_t1_loop.ub k0_t1_loop.st)

/-- The 16 row blocks of 256 rows tile the scratch's 4096 rows, so they cover it. -/
theorem scratch_cover (y : S4096x128.Idx) :
    ∃ pc ∈ (loopEnd c i arg1 harg1 arg2 harg2 arg3 harg3 arg4 harg4 arg5 harg5 x0 x1).2, y ∈ pc.1.set :=
  View.cover_of_tiledL (loopEnd c i arg1 harg1 arg2 harg2 arg3 harg3 arg4 harg4 arg5 harg5 x0 x1).2 S256x128.size (by sl_kernel_rfl) y

/-- What the scratch holds after the loop: the row blocks read back over anything. -/
def scratchEnd : Vec F S4096x128 .f32 :=
  scrView.read (Elt F) (scrView.writes (Elt F) scrView.junk (loopEnd c i arg1 harg1 arg2 harg2 arg3 harg3 arg4 harg4 arg5 harg5 x0 x1).2)

/-- The first result block: the sum over the rows of the row minima clamped at zero, splat. -/
def res1 : Vec F S1x1x128 .f32 :=
  View.canon [⟨rRes, k0_pay5 (View.ld (scratchEnd c i arg1 harg1 arg2 harg2 arg3 harg3 arg4 harg4 arg5 harg5 x0 x1) rScr)⟩]

/-- The second result block: the sum over the columns of the column minima clamped at zero, splat. -/
def res2 : Vec F S1x1x128 .f32 :=
  View.canon [⟨rRes, k0_pay6 (loopEnd c i arg1 harg1 arg2 harg2 arg3 harg3 arg4 harg4 arg5 harg5 x0 x1).1⟩]

/-- One whole-block store covers a result block. -/
theorem res_cover (p0 : Vec F S1x1x128 .f32) (y : S1x1x128.Idx) :
    ∃ pc ∈ ([⟨rRes, p0⟩] : List (View.Piece (Elt F) S1x1x128 .f32)), y ∈ pc.1.set :=
  View.cover_of_tiled [⟨rRes, p0⟩] S1x1x128.size (by rfl) y

end Loop

/-! ## The body's run -/

set_option maxHeartbeats 2000000 in
/-- On whole staging memrefs — the inputs' at their blocks, the results' and the scratch at anything — the body runs
    to the continuation holding the inputs' as they were, the results' at `res1` and `res2`, the scratch at
    something. -/
theorem sound_kernel (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
    (x0 : Vec F S1x4096x8 .f32) (x1 : Vec F S1x8x4096 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ owns (c : Thread nD τ) arg3 fullShare (res1 c i arg1 harg1 arg2 harg2 arg3 harg3 arg4 harg4 arg5 harg5 x0 x1)
                ∗ owns (c : Thread nD τ) arg4 fullShare (res2 c i arg1 harg1 arg2 harg2 arg3 harg3 arg4 harg4 arg5 harg5 x0 x1)
                ∗ (∃ d, owns (c : Thread nD τ) arg5 fullShare d)) -∗ K ⟨⟩))
          ⊢ wp frame (wpE (defs₀ (F := F)) Variants.none c none) E (cc0__chamfer_body i arg1 harg1 arg2 harg2 arg3 harg3 arg4 harg4 arg5 harg5) K := by
    simp only [cc0__chamfer_body_eq_skeleton]; unfold cc0__chamfer_body_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (res_cover _)]
      unfold res1 scratchEnd
      refine congrArg (fun z : Vec F S4096x128 .f32 => (View.canon [(⟨rRes, k0_pay5 z⟩ : View.Piece (Elt F) S1x1x128 .f32)] : Vec F S1x1x128 .f32)) ?_
      exact (View.readAt_eq_ld _ _ _).trans (congrArg (fun r => View.ld r rScr)
        (View.read_writes_of_cover _ _ _ _ _ (scratch_cover c i arg1 harg1 arg2 harg2 arg3 harg3 arg4 harg4 arg5 harg5 x0 x1)))
    isplitl [H3]
    · iexists _; isplitr; swap; · iexact H3
      ipureintro
      exact View.read_writes_eq_canon _ _ _ (res_cover _)
    iexists _, _; isplitr; swap; · iexact H4
    ipureintro; rfl

/-! ## The region's proof data -/

/-- What the two result blocks hold after the body at grid point `t`. -/
def res1At (c : Dev nD) (t : Fin cfg0.N) : Vec F S1x1x128 .f32 :=
  res1 c (grid0.coords t) (stg0 t) (hstg0 t) (stg1 t) (hstg1 t) (stg2 t) (hstg2 t) (stg3 t) (hstg3 t) scr hscr (blockAt m c 0 t) (blockAt m c 1 t)
def res2At (c : Dev nD) (t : Fin cfg0.N) : Vec F S1x1x128 .f32 :=
  res2 c (grid0.coords t) (stg0 t) (hstg0 t) (stg1 t) (hstg1 t) (stg2 t) (hstg2 t) (stg3 t) (hstg3 t) scr hscr (blockAt m c 0 t) (blockAt m c 1 t)

/-- The proof data of the region on core `c`: the arrays as the region finds them; after the body at point `t` each
    input's buffer at its block and each result's at its named value; the invariant the scratch and the generator
    register at anything; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => res1At m c t
    | ⟨3, _⟩ => res2At m c t
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = res1At m c t := by dsimp only [dats]
theorem after3 (c : Dev nD) (t : Fin cfg0.N) : (dats m 0 c).after 3 t = res2At m c t := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the scratch is lent by the invariant and given
    back, so the body's run applies; the generator register and the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1]
  rw [show (dats m 0 c).Φ t.succ = (dats m 0 c).Φ t.castSucc from rfl,
    show (dats m 0 c).owesAt () t.succ = (dats m 0 c).owesAt () t.castSucc from rfl,
    after0, after1, after2, after3,
    show (dats m 0 c).Φ t.castSucc = Pipeline.ΦA spec0 c from rfl]
  unfold Pipeline.ΦA
  rw [scopedRest0_eq]
  simp only [← owns_whole (c : Thread nD τ) cc0_scratch0 fullShare]
  iintro ⟨⟨⟨%fs, Hs⟩, Hg⟩, Ho, ⟨%d0, H0⟩, ⟨%d1, H1⟩, ⟨%d2, H2⟩, ⟨%d3, H3⟩⟩
  iapply (sound_kernel c (grid0.coords t) _ _ _ _ _ _ _ _ _ _ (blockAt m c 0 t) (blockAt m c 1 t) Set.univ _)
  isplitl [H0]; · iexact H0
  isplitl [H1]; · iexact H1
  isplitl [H2]; · iexists _; iexact H2
  isplitl [H3]; · iexists _; iexact H3
  isplitl [Hs]
  · iexists fs; iexact Hs
  iintro ⟨H0, H1, H2, H3, ⟨%ds, Hs⟩⟩
  isplitl [Hs Hg]
  · isplitl [Hs]
    · iexists ds; iexact Hs
    iexact Hg
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has each of the region's arrays at what its blocks' values give and every other unscoped buffer as the later
    host operations leave it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hΦ := fun _ _ => rfl)

/-- The program runs to the end, faults nowhere, and both point clouds end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  args_kept_of m ρ (dats m) (run_main m ρ)

end Cert.Kernel.Hand

end
-- ==== Proof.EntryIdeal.lean ====
/-
  The host side of the program around its one pipelined region. Before the region the program computes, from the two
  point clouds, the augmented coordinate arrays the region reads; after it, it averages what the region wrote. Here:
  the contents of every buffer when the region is entered, as the earlier host operations leave them; that the
  program is those operations, the region, and the later operations in sequence; that the later operations touch
  only buffers outside the region's staging, allocate nothing and write none of the region's four arrays; and that
  neither stretch of host operations writes an argument array, so both end as launched.
-/
import proofs.«119373_g85555748536873_cont_9to1_m_146_14_alg».proof.Proof.Gen.KernelIdeal.Launch
import proofs.«119373_g85555748536873_cont_9to1_m_146_14_alg».proof.Proof.Gen.KernelIdeal.Skeleton
import proofs.«119373_g85555748536873_cont_9to1_m_146_14_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at region entry -/

/-- Core `c`'s buffers when the region is entered: the launch contents run through the host operations before it. -/
abbrev entry0 (c : Dev nD) : Valuation τ sig (Elt F) := StableHlo.after (List.flatten [hostOps0]) (fun b => m (c, b))
/-- The same, read at one TensorCore buffer. -/
abbrev entry (c : Dev nD) (b : Ref sig .tc) : Buf (Elt F) ((c : Thread nD τ).loc b) := entry0 m c (Proc.devRef .tc b)

/-- The host operations before the region allocate nothing. -/
theorem before_fresh : (hostOps0 : List (HloOp τ sig (Elt F))).Forall fun op => op.fresh = ∅ := by
  simp only [List.Forall]; repeat' constructor
/-- Nor do those after it. -/
theorem after_fresh : (hostOps1 : List (HloOp τ sig (Elt F))).Forall fun op => op.fresh = ∅ := by
  simp only [List.Forall]; repeat' constructor

/-- The program is: the earlier host operations, the region, the later host operations. From the launch contents it
    therefore reduces to the region, entered at `entry`, continued by the later operations. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The later operations touch only the region's arrays and buffers that bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- Each writes only its own result buffer, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-! ## The argument arrays are never written -/

/-- No host operation before the region writes the first cloud: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the second cloud. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes the first cloud either, and it is none of the region's arrays: it
    ends as launched, whatever the region's proof data. -/
theorem exit_arg0 (dats : (p : Fin _) → (c : Dev nD) → Dat τ (Elt F) Unit ℕ (UR sig nD τ) ℕ (cfgs p) c) (c : Dev nD) :
    Pipeline.afterTail₀ cfgs dats 0 (entry0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (entry0 m c) _ main_arg0 (by exact (by decide : ∀ w, Pipeline.arrRef spec0 w ≠ main_arg0))]
  exact entry_arg0 m c
/-- The same for the second cloud. -/
theorem exit_arg1 (dats : (p : Fin _) → (c : Dev nD) → Dat τ (Elt F) Unit ℕ (UR sig nD τ) ℕ (cfgs p) c) (c : Dev nD) :
    Pipeline.afterTail₀ cfgs dats 0 (entry0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (entry0 m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not, for any proof
    data whose array is the region-entry one and whose body leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region's frame -/

/-- For any proof data whose arrays are the region-entry contents, a run ending with every buffer that bypasses the
    region as the later host operations leave it ends with both argument arrays as launched. -/
theorem args_kept_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (exit_arg0 m dats c),
     ((h c).2 main_arg1 (Pipeline.mem_restRefs_of main_arg1 (by decide) (by decide))).trans (exit_arg1 m dats c)⟩) h

end Cert.KernelIdeal.Hand

end
-- ==== Proof.BodyIdeal.lean ====
/-
  The kernel body at one grid point (one batch entry), and the program's run around it. The body loads the whole
  block of the second cloud's augmented coordinates, then in 16 trips takes 256 rows of the first cloud's augmented
  coordinates at a time: each trip multiplies its rows against the columns in 8 chunks of 512, stores the rows'
  running minima over lane groups into 256 rows of a scratch buffer, and carries the columns' running minima over
  sublane groups in a register value. After the loop it reduces the scratch along lanes and the carried value along
  sublanes, clamps at zero, sums, and stores each sum splat into a result block. Here: the trips' 16 row blocks tile
  the scratch, so what the scratch holds after the loop does not depend on what it held before; the two result
  blocks as named values of the two input blocks; the body's run; and the run of the whole program, which ends with
  each result array block by block at those values and every other buffer as the later host operations leave it.
-/
import proofs.«119373_g85555748536873_cont_9to1_m_146_14_alg».proof.Proof.EntryIdeal
import proofs.«119373_g85555748536873_cont_9to1_m_146_14_alg».proof.Proof.Gen.KernelIdeal.Loops

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's whole-buffer accesses -/

/-- The whole block of the second operand. -/
abbrev rCols : Rect S1x8x4096 := Rect.unit (s := S1x8x4096) ![0, 0, 0] S1x8x4096.size inb_S1x8x4096_S1x8x4096_0_0_0
/-- A whole result block. -/
abbrev rRes : Rect S1x1x128 := Rect.unit (s := S1x1x128) ![0, 0, 0] S1x1x128.size inb_S1x1x128_S1x1x128_0_0_0
/-- The whole scratch. -/
abbrev rScr : Rect S4096x128 := Rect.unit (s := S4096x128) ![0, 0] S4096x128.size inb_S4096x128_S4096x128_0_0

/-- One buffer of the scratch's shape, through which the scratch's contents after the loop are stated (the choice
    does not matter once the stores cover it). -/
abbrev scrView : View sig .tc .vmem S4096x128 .f32 := (Memref.whole cc0_scratch0 : Memref sig .tc .vmem S4096x128 .f32).view

/-- Each window's current staging memref at point `t`, as the pipeline passes it to the body, and its wholeness. -/
abbrev stg0 (t : Fin cfg0.N) : Memref sig .tc .vmem S1x4096x8 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S1x8x4096 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1x128 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x1x128 .f32 := win0_3.stage (cfg0.slots t 3)
abbrev hstg3 (t : Fin cfg0.N) : (stg3 t).IsWhole := hstage0_3 ((cfg0.slots t 3).cast nbuf0_3)
abbrev scr : Memref sig .tc .vmem S4096x128 .f32 := Memref.whole cc0_scratch0
abbrev hscr : (scr).IsWhole := Memref.isWhole_whole _

/-! ## What the loop leaves -/

section Loop

variable (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
  (x0 : Vec F S1x4096x8 .f32) (x1 : Vec F S1x8x4096 .f32)

/-- The loop's state after its last trip, from the carried value all `+∞`: the carried column minima, and the row
    blocks the trips stored into the scratch (last first). -/
abbrev loopEnd : (FVec F S8x4096 .f32) × List (View.Piece (Elt F) S4096x128 .f32) :=
  st_k0_t1 Variants.none c none i arg1 harg1 arg2 harg2 arg3 harg3 arg4 harg4 arg5 harg5
    (View.readAt (Elt F) arg2.view rCols.toLoadRect (harg2.unread x1)) (harg1.unread x0) k0_pay2
    (Scf.trips k0_t1_loop.lb k0_t1_loop.ub k0_t1_loop.st)

/-- The 16 row blocks of 256 rows tile the scratch's 4096 rows, so they cover it. -/
theorem scratch_cover (y : S4096x128.Idx) :
    ∃ pc ∈ (loopEnd c i arg1 harg1 arg2 harg2 arg3 harg3 arg4 harg4 arg5 harg5 x0 x1).2, y ∈ pc.1.set :=
  View.cover_of_tiledL (loopEnd c i arg1 harg1 arg2 harg2 arg3 harg3 arg4 harg4 arg5 harg5 x0 x1).2 S256x128.size (by sl_kernel_rfl) y

/-- What the scratch holds after the loop: the row blocks read back over anything. -/
def scratchEnd : Vec F S4096x128 .f32 :=
  scrView.read (Elt F) (scrView.writes (Elt F) scrView.junk (loopEnd c i arg1 harg1 arg2 harg2 arg3 harg3 arg4 harg4 arg5 harg5 x0 x1).2)

/-- The first result block: the sum over the rows of the row minima clamped at zero, splat. -/
def res1 : Vec F S1x1x128 .f32 :=
  View.canon [⟨rRes, k0_pay5 (View.ld (scratchEnd c i arg1 harg1 arg2 harg2 arg3 harg3 arg4 harg4 arg5 harg5 x0 x1) rScr)⟩]

/-- The second result block: the sum over the columns of the column minima clamped at zero, splat. -/
def res2 : Vec F S1x1x128 .f32 :=
  View.canon [⟨rRes, k0_pay6 (loopEnd c i arg1 harg1 arg2 harg2 arg3 harg3 arg4 harg4 arg5 harg5 x0 x1).1⟩]

/-- One whole-block store covers a result block. -/
theorem res_cover (p0 : Vec F S1x1x128 .f32) (y : S1x1x128.Idx) :
    ∃ pc ∈ ([⟨rRes, p0⟩] : List (View.Piece (Elt F) S1x1x128 .f32)), y ∈ pc.1.set :=
  View.cover_of_tiled [⟨rRes, p0⟩] S1x1x128.size (by rfl) y

end Loop

/-! ## The body's run -/

set_option maxHeartbeats 2000000 in
/-- On whole staging memrefs — the inputs' at their blocks, the results' and the scratch at anything — the body runs
    to the continuation holding the inputs' as they were, the results' at `res1` and `res2`, the scratch at
    something. -/
theorem sound_kernel (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
    (x0 : Vec F S1x4096x8 .f32) (x1 : Vec F S1x8x4096 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1
                ∗ owns (c : Thread nD τ) arg3 fullShare (res1 c i arg1 harg1 arg2 harg2 arg3 harg3 arg4 harg4 arg5 harg5 x0 x1)
                ∗ owns (c : Thread nD τ) arg4 fullShare (res2 c i arg1 harg1 arg2 harg2 arg3 harg3 arg4 harg4 arg5 harg5 x0 x1)
                ∗ (∃ d, owns (c : Thread nD τ) arg5 fullShare d)) -∗ K ⟨⟩))
          ⊢ wp frame (wpE (defs₀ (F := F)) Variants.none c none) E (cc0__chamfer_body i arg1 harg1 arg2 harg2 arg3 harg3 arg4 harg4 arg5 harg5) K := by
    simp only [cc0__chamfer_body_eq_skeleton]; unfold cc0__chamfer_body_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (res_cover _)]
      unfold res1 scratchEnd
      refine congrArg (fun z : Vec F S4096x128 .f32 => (View.canon [(⟨rRes, k0_pay5 z⟩ : View.Piece (Elt F) S1x1x128 .f32)] : Vec F S1x1x128 .f32)) ?_
      exact (View.readAt_eq_ld _ _ _).trans (congrArg (fun r => View.ld r rScr)
        (View.read_writes_of_cover _ _ _ _ _ (scratch_cover c i arg1 harg1 arg2 harg2 arg3 harg3 arg4 harg4 arg5 harg5 x0 x1)))
    isplitl [H3]
    · iexists _; isplitr; swap; · iexact H3
      ipureintro
      exact View.read_writes_eq_canon _ _ _ (res_cover _)
    iexists _, _; isplitr; swap; · iexact H4
    ipureintro; rfl

/-! ## The region's proof data -/

/-- What the two result blocks hold after the body at grid point `t`. -/
def res1At (c : Dev nD) (t : Fin cfg0.N) : Vec F S1x1x128 .f32 :=
  res1 c (grid0.coords t) (stg0 t) (hstg0 t) (stg1 t) (hstg1 t) (stg2 t) (hstg2 t) (stg3 t) (hstg3 t) scr hscr (blockAt m c 0 t) (blockAt m c 1 t)
def res2At (c : Dev nD) (t : Fin cfg0.N) : Vec F S1x1x128 .f32 :=
  res2 c (grid0.coords t) (stg0 t) (hstg0 t) (stg1 t) (hstg1 t) (stg2 t) (hstg2 t) (stg3 t) (hstg3 t) scr hscr (blockAt m c 0 t) (blockAt m c 1 t)

/-- The proof data of the region on core `c`: the arrays as the region finds them; after the body at point `t` each
    input's buffer at its block and each result's at its named value; the invariant the scratch and the generator
    register at anything; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => res1At m c t
    | ⟨3, _⟩ => res2At m c t
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = res1At m c t := by dsimp only [dats]
theorem after3 (c : Dev nD) (t : Fin cfg0.N) : (dats m 0 c).after 3 t = res2At m c t := by dsimp only [dats]

theorem staged0 (c : Dev nD) (t : Fin cfg0.N) (d) : (dats m 0 c).before 0 t d = blockAt m c 0 t :=
  staged0_of m (dats m 0 c) (A_eq m c 0) (after0 m c) t d
theorem staged1 (c : Dev nD) (t : Fin cfg0.N) (d) : (dats m 0 c).before 1 t d = blockAt m c 1 t :=
  staged1_of m (dats m 0 c) (A_eq m c 1) (after1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the scratch is lent by the invariant and given
    back, so the body's run applies; the generator register and the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1]
  rw [show (dats m 0 c).Φ t.succ = (dats m 0 c).Φ t.castSucc from rfl,
    show (dats m 0 c).owesAt () t.succ = (dats m 0 c).owesAt () t.castSucc from rfl,
    after0, after1, after2, after3,
    show (dats m 0 c).Φ t.castSucc = Pipeline.ΦA spec0 c from rfl]
  unfold Pipeline.ΦA
  rw [scopedRest0_eq]
  simp only [← owns_whole (c : Thread nD τ) cc0_scratch0 fullShare]
  iintro ⟨⟨⟨%fs, Hs⟩, Hg⟩, Ho, ⟨%d0, H0⟩, ⟨%d1, H1⟩, ⟨%d2, H2⟩, ⟨%d3, H3⟩⟩
  iapply (sound_kernel c (grid0.coords t) _ _ _ _ _ _ _ _ _ _ (blockAt m c 0 t) (blockAt m c 1 t) Set.univ _)
  isplitl [H0]; · iexact H0
  isplitl [H1]; · iexact H1
  isplitl [H2]; · iexists _; iexact H2
  isplitl [H3]; · iexists _; iexact H3
  isplitl [Hs]
  · iexists fs; iexact Hs
  iintro ⟨H0, H1, H2, H3, ⟨%ds, Hs⟩⟩
  isplitl [Hs Hg]
  · isplitl [Hs]
    · iexists ds; iexact Hs
    iexact Hg
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates, and every final state
    has each of the region's arrays at what its blocks' values give and every other unscoped buffer as the later
    host operations leave it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := A_eq m) (hΦ := fun _ _ => rfl)

/-- The program runs to the end, faults nowhere, and both point clouds end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  args_kept_of m ρ (dats m) (run_main m ρ)

end Cert.KernelIdeal.Hand

end
-- ==== Proof.Spec.lean ====
/-
  The chamfer distance (squared L2) of two batched point clouds, as one function of the two argument arrays over the
  extended reals, written the way the reference computes it: for batch entry `b`, point `n` of the first cloud and
  point `m` of the second, the pairwise squared distance is `‖p‖² + ‖q‖² − 2⟨p, q⟩` clamped below at zero; each
  point's nearest distance is the minimum of its row (or column) of that matrix; the result is the mean of the
  first cloud's nearest distances plus the mean of the second cloud's.
-/
import Idealize.ShloMosaic.PureOps.Ideal
import Idealize.ShloMosaic.Lib.ValueIdx

noncomputable section

open scoped BigOperators

namespace Cert.Chamfer

open Idealize.ShloMosaic Idealize.ShloMosaic.ValueIdx

/-- A batch of 8 clouds of 4096 points in 3-space, over the extended reals. -/
abbrev Cloud : Type := (⟨3, ![8, 4096, 3]⟩ : Shape).Idx → EReal

/-- The squared norm of point `n` of batch entry `b`. -/
def sq (x : Cloud) (b : Fin 8) (n : Fin 4096) : EReal := ∑ d : Fin 3, x (ix3 b n d) * x (ix3 b n d)

/-- The inner product of point `n` of the first cloud with point `m` of the second. -/
def inner (x1 x2 : Cloud) (b : Fin 8) (n m : Fin 4096) : EReal := ∑ d : Fin 3, x1 (ix3 b n d) * x2 (ix3 b m d)

/-- The pairwise squared distance `‖p‖² + ‖q‖² − 2⟨p, q⟩`. -/
def pair (x1 x2 : Cloud) (b : Fin 8) (n m : Fin 4096) : EReal :=
  (sq x1 b n + sq x2 b m) - 2 * inner x1 x2 b n m

/-- The nearest (clamped) distance from point `n` of the first cloud to the second cloud. -/
def rowNear (x1 x2 : Cloud) (b : Fin 8) (n : Fin 4096) : EReal :=
  Finset.univ.inf fun m : Fin 4096 => max (pair x1 x2 b n m) 0

/-- The nearest (clamped) distance from point `m` of the second cloud to the first cloud. -/
def colNear (x1 x2 : Cloud) (b : Fin 8) (m : Fin 4096) : EReal :=
  Finset.univ.inf fun n : Fin 4096 => max (pair x1 x2 b n m) 0

/-- The number of points over the whole batch, 8 · 4096 = 32768, as the f32 word both programs divide by. -/
def count : EReal := Ideal.ofBits .f32 0x47000000#32

/-- The chamfer distance: the two means of nearest distances, added. -/
def chamfer (x1 x2 : Cloud) : EReal :=
  Ideal.div (∑ b : Fin 8, ∑ n : Fin 4096, rowNear x1 x2 b n) count
    + Ideal.div (∑ b : Fin 8, ∑ m : Fin 4096, colNear x1 x2 b m) count

/-- The kernel's augmented coordinates of the first cloud: `(x, y, z, ‖p‖², 0, 1, 1, 0)`, the fifth entry being the
    remainder `‖p‖² − ‖p‖²` of a split that is exact over the reals. -/
def aug1 (x1 : Cloud) (b : Fin 8) (n : Fin 4096) (d : Fin 8) : EReal :=
  match d with
  | ⟨0, _⟩ => x1 (ix3 b n 0) | ⟨1, _⟩ => x1 (ix3 b n 1) | ⟨2, _⟩ => x1 (ix3 b n 2)
  | ⟨3, _⟩ => sq x1 b n | ⟨4, _⟩ => sq x1 b n - sq x1 b n
  | ⟨5, _⟩ => 1 | ⟨6, _⟩ => 1 | ⟨_ + 7, _⟩ => 0

/-- The kernel's augmented coordinates of the second cloud: `(−2x, −2y, −2z, 1, 1, ‖q‖², 0, 0)`. -/
def aug2 (x2 : Cloud) (b : Fin 8) (m : Fin 4096) (d : Fin 8) : EReal :=
  match d with
  | ⟨0, _⟩ => -2 * x2 (ix3 b m 0) | ⟨1, _⟩ => -2 * x2 (ix3 b m 1) | ⟨2, _⟩ => -2 * x2 (ix3 b m 2)
  | ⟨3, _⟩ => 1 | ⟨4, _⟩ => 1
  | ⟨5, _⟩ => sq x2 b m | ⟨6, _⟩ => sq x2 b m - sq x2 b m | ⟨_ + 7, _⟩ => 0

/-- The product the matrix unit forms: the augmented rows' dot product over the 8 augmented coordinates. -/
def dotAug (x1 x2 : Cloud) (b : Fin 8) (n m : Fin 4096) : EReal := ∑ d : Fin 8, aug1 x1 b n d * aug2 x2 b m d

end Cert.Chamfer

end
-- ==== Proof.LibLayoutReads.lean ====
/-
  Layout operations of a host program read at an index written by its coordinates: a broadcast of a scalar, of a
  vector to a column or a row, of a column or a row to a matrix; a vector cast to a one-row matrix; a plain matrix
  product read at (i, j) as the sum over the contracted coordinate; and two scalar facts: the guarded reciprocal
  square root select(x > 0, rsqrt x, 0) is a nonnegative real, and the wrap of a negative index leaves a
  nonnegative 32-bit word alone.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.LayoutReads

open Idealize.ShloMosaic Idealize.ShloMosaic.ValueIdx

variable {α : Type}

/-! ## Broadcasts at an index -/

/-- A broadcast scalar reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector [a] broadcast to a column [a, 1] reads, at (i, u), the vector at i. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) :=
  broadcastInDim_apply _ h x _ (ix1 i) (fun c => by
    have hi := i.isLt
    match c with
    | ⟨0, _⟩ =>
      show i.val = if a = 1 then 0 else i.val
      split <;> omega)

/-- A vector [b] broadcast to a row [1, b] reads, at (u, j), the vector at j. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) :=
  broadcastInDim_apply _ h x _ (ix1 j) (fun c => by
    have hj := j.isLt
    match c with
    | ⟨0, _⟩ =>
      show j.val = if b = 1 then 0 else j.val
      split <;> omega)

/-- A column [a, 1] broadcast to a matrix [a, b] reads, at (i, j), the column at (i, 0). -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x _ (ix2 i (0 : Fin 1)) (fun c => by
    have hi := i.isLt
    match c with
    | ⟨0, _⟩ =>
      show i.val = if a = 1 then 0 else i.val
      split <;> omega
    | ⟨1, _⟩ =>
      show 0 = if 1 = 1 then 0 else j.val
      rfl)

/-- A row [1, b] broadcast to a matrix [a, b] reads, at (i, j), the row at (0, j). -/
theorem bcast_row_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) :=
  broadcastInDim_apply _ h x _ (ix2 (0 : Fin 1) j) (fun c => by
    have hj := j.isLt
    match c with
    | ⟨0, _⟩ =>
      show 0 = if 1 = 1 then 0 else i.val
      rfl
    | ⟨1, _⟩ =>
      show j.val = if b = 1 then 0 else j.val
      split <;> omega)

/-- A vector [b] cast to a one-row matrix [1, b] reads, at (u, j), the vector at j. -/
theorem shapeCast_vec_row_apply {b : ℕ} (h : (⟨1, ![b]⟩ : Shape).ShapeCasts ⟨2, ![1, b]⟩)
    (x : (⟨1, ![b]⟩ : Shape).Idx → α) (u : Fin 1) (j : Fin b) : shapeCast ⟨2, ![1, b]⟩ x h (ix2 u j) = x (ix1 j) :=
  shapeCast_a_1a_apply x h u j

/-! ## Two scalar facts -/

/-- The guarded reciprocal square root, select(x > 0, rsqrt x, 0), is a nonnegative real at every extended real x:
    0 off the positive half-line, 0 at the top, and the inverse of the square root at a positive real. -/
theorem dinv_nonneg_real (x : EReal) :
    ∃ r : ℝ, 0 ≤ r ∧ Scalar.select (Ideal.cmp .ogt x 0) (Ideal.rsqrt x) 0 = (r : EReal) := by
  by_cases hx : 0 < x
  · have hc : Ideal.cmp .ogt x 0 = 1#1 := by simp [Ideal.cmp, hx]
    rw [hc, select_one]
    induction x using EReal.rec with
    | bot => exact absurd hx (by simp)
    | top => exact ⟨0, le_rfl, by simp⟩
    | coe r =>
      have hr : 0 < r := by exact_mod_cast hx
      refine ⟨(Real.sqrt r)⁻¹, inv_nonneg.mpr (Real.sqrt_nonneg r), ?_⟩
      rw [Ideal.rsqrt_coe, if_neg (not_lt.mpr hr.le), if_neg hr.ne']
  · have hc : Ideal.cmp .ogt x 0 = 0#1 := by simp [Ideal.cmp, hx]
    rw [hc, select_zero]
    exact ⟨0, le_rfl, by simp⟩

/-- A 32-bit word that reads, signed, as nonnegative is left alone by the wrap of negative indices. -/
theorem wrap_of_nonneg (v : BitVec 32) (h0 : 0 ≤ v.toInt) :
    Scalar.select (IntOp.cmpi .slt v 0#32) (IntOp.addi v 100000#32) v = v := by
  have hs : v.slt 0#32 = false := by
    unfold BitVec.slt
    simp
    exact h0
  have hc : IntOp.cmpi .slt v 0#32 = 0#1 := by
    show BitVec.ofBool (v.slt 0#32) = 0#1
    rw [hs]; rfl
  rw [hc, select_zero]

/-! ## A plain matrix product at an index -/

/-- With no batch axis and one non-contracting axis on the left, that axis reads the result index's first coordinate. -/
theorem lhsIdx_val_of_single_non {sl sr so : Shape} (d : DotDims sl sr so) {a : Fin sl.rank}
    (hb : d.lhsBatch = []) (hn : d.lhsNonContracting = [a]) (j : so.Idx) (k : d.contr.Idx) (h0 : 0 < so.rank) :
    (d.lhsIdx j k a).val = (j ⟨0, h0⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting axis on the left and one on the right, the right one reads the result
    index's second coordinate. -/
theorem rhsIdx_val_of_single_non {sl sr so : Shape} (d : DotDims sl sr so) {al : Fin sl.rank} {a : Fin sr.rank}
    (hlb : d.lhsBatch = []) (hrb : d.rhsBatch = []) (hln : d.lhsNonContracting = [al]) (hn : d.rhsNonContracting = [a])
    (j : so.Idx) (k : d.contr.Idx) (h1 : 1 < so.rank) :
    (d.rhsIdx j k a).val = (j ⟨1, h1⟩).val := by
  have hmem : a ∈ d.rhsNonContracting := by rw [hn]; exact List.mem_singleton.mpr rfl
  unfold DotDims.rhsIdx
  rw [dif_neg (by rw [hrb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- A plain matrix product [n, kk] x [kk, p] on the host, at the exact values, read at (i, j): the sum over the
    contracted coordinate k of lhs (i, k) * rhs (k, j). -/
theorem dotGeneral_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    Host.dotGeneral (F := Ideal) d prec lhs rhs (ix2 i j) = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  simp only [Host.dotGeneral]
  rw [Ideal.dotGeneral_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.HostPrefix.lean ====
/-
  The two operands the host program hands to the kernel, as pure functions of the two argument arrays, and what they
  hold at an index: the first cloud's points augmented to (x, y, z, ‖p‖², ‖p‖² − ‖p‖², 1, 1, 0), and the second
  cloud's points augmented to (−2x, −2y, −2z, 1, 1, ‖q‖², ‖q‖² − ‖q‖², 0) and laid out coordinate-major.
-/
import proofs.«119373_g85555748536873_cont_9to1_m_146_14_alg».proof.KernelIdeal
import proofs.«119373_g85555748536873_cont_9to1_m_146_14_alg».proof.Proof.Spec
import proofs.«119373_g85555748536873_cont_9to1_m_146_14_alg».proof.Proof.LibLayoutReads
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Chamfer.Prefix

open Idealize.ShloMosaic Idealize.ShloMosaic.ValueIdx
open Cert.KernelIdeal Cert.KernelIdeal.Facts₀ Cert.KernelIdeal.Facts

variable [Cert.KernelIdeal.Facts]

/-! ## The operands as terms -/

/-- The squared norms of a cloud's points as a column [8, 4096, 1]: the sum over the three coordinates of the squares,
    from the zero word, given a trailing unit axis. -/
def sqCol (x : FVec Ideal S8x4096x3 .f32) : FVec Ideal S8x4096x1 .f32 :=
  broadcastInDim S8x4096x1 ![0, 1] bcast_S8x4096_S8x4096x1_0_1
    (Host.reduceAdd (mulf x x) (constant (F := Ideal) S_ .f32 0x00000000#32) reducesTo_S8x4096x3_S8x4096_d2 h_S_)

/-- The leading part of the squared norms: narrowed to bf16 and widened back (the identity over the extended reals). -/
def hiCol (x : FVec Ideal S8x4096x3 .f32) : FVec Ideal S8x4096x1 .f32 :=
  extf .f32 (truncf .bf16 (sqCol x) bitsLt_bf16_f32) bitsLt_bf16_f32

/-- The remainder of the squared norms after their leading part. -/
def loCol (x : FVec Ideal S8x4096x3 .f32) : FVec Ideal S8x4096x1 .f32 :=
  subf (sqCol x) (hiCol x)

/-- A column of ones. -/
def onesCol : FVec Ideal S8x4096x1 .f32 :=
  broadcastInDim S8x4096x1 ![] bcast_S_S8x4096x1 (constant (F := Ideal) S_ .f32 0x3F800000#32)

/-- A column of zeros. -/
def zerosCol : FVec Ideal S8x4096x1 .f32 :=
  broadcastInDim S8x4096x1 ![] bcast_S_S8x4096x1 (constant (F := Ideal) S_ .f32 0x00000000#32)

/-- The second cloud scaled by −2. -/
def scaled (x : FVec Ideal S8x4096x3 .f32) : FVec Ideal S8x4096x3 .f32 :=
  mulf (broadcastInDim S8x4096x3 ![] bcast_S_S8x4096x3 (constant (F := Ideal) S_ .f32 0xC0000000#32)) x

/-- The first operand: the first cloud's points augmented along the last axis. -/
def augLeft (x1 : FVec Ideal S8x4096x3 .f32) : FVec Ideal S8x4096x8 .f32 :=
  concatenate S8x4096x8 2
    [⟨S8x4096x3, x1⟩, ⟨S8x4096x1, hiCol x1⟩, ⟨S8x4096x1, loCol x1⟩, ⟨S8x4096x1, onesCol⟩, ⟨S8x4096x1, onesCol⟩,
      ⟨S8x4096x1, zerosCol⟩]
    concatenates_S8x4096x3_S8x4096x1_S8x4096x1_S8x4096x1_S8x4096x1_S8x4096x1_S8x4096x8_d2

/-- The second cloud's points augmented along the last axis, point-major. -/
def augRight (x2 : FVec Ideal S8x4096x3 .f32) : FVec Ideal S8x4096x8 .f32 :=
  concatenate S8x4096x8 2
    [⟨S8x4096x3, scaled x2⟩, ⟨S8x4096x1, onesCol⟩, ⟨S8x4096x1, onesCol⟩, ⟨S8x4096x1, hiCol x2⟩, ⟨S8x4096x1, loCol x2⟩,
      ⟨S8x4096x1, zerosCol⟩]
    concatenates_S8x4096x3_S8x4096x1_S8x4096x1_S8x4096x1_S8x4096x1_S8x4096x1_S8x4096x8_d2

/-- The second operand: the augmented second cloud, coordinate-major. -/
def augRightT (x2 : FVec Ideal S8x4096x3 .f32) : FVec Ideal S8x8x4096 .f32 :=
  transpose S8x8x4096 [0, 2, 1] (augRight x2) transposes_S8x4096x8_S8x8x4096_0_2_1

/-! ## Scalars -/

/-- The word 0xC0000000 is minus two. -/
theorem ofBits_neg_two : Ideal.ofBits .f32 0xC0000000#32 = (-2 : EReal) := by
  have h : Ideal.ofBits .f32 0xC0000000#32 = (((-2 : ℝ)) : EReal) := by
    simp [Ideal.ofBits, Ideal.ieee, -EReal.coe_mul, -EReal.coe_neg]; norm_num
  rw [h, EReal.coe_neg]; rfl

/-! ## The squared norms at an index -/

/-- The reduced index (b, n) with coordinate k put back on the last axis is (b, n, k). -/
theorem lift_ix3 (h : S8x4096x3.Reduces [2] S8x4096) (b : Fin 8) (n : Fin 4096) (k : Fin (S8x4096x3.size 2)) :
    h.lift (ix2 b n) k = ix3 b n (⟨k.val, k.isLt⟩ : Fin 3) := by
  funext c; apply Fin.ext
  match c with
  | ⟨0, _⟩ => rfl
  | ⟨1, _⟩ => rfl
  | ⟨2, _⟩ => rfl

/-- The column of squared norms reads, at (b, n, 0), the sum of the squares of the point's three coordinates. -/
theorem sqCol_apply (x : FVec Ideal S8x4096x3 .f32) (b : Fin 8) (n : Fin 4096) (u : Fin 1) :
    sqCol x (ix3 b n u) = Cert.Chamfer.sq x b n := by
  unfold sqCol
  rw [broadcastInDim_apply ![0, 1] bcast_S8x4096_S8x4096x1_0_1 _ (ix3 b n u) (ix2 b n)
    (fun a => match a with | ⟨0, _⟩ => rfl | ⟨1, _⟩ => rfl)]
  rw [hostReduceAdd_apply, Ideal.hostReduceAdd_single _ (by decide : S8x4096x3.Reduces [2] S8x4096)]
  rw [constant_apply, Ideal.ofBits_zero_f32, zero_add]
  unfold Cert.Chamfer.sq
  refine Finset.sum_congr rfl fun k _ => ?_
  rw [lift_ix3, mulf_apply]
  rfl

/-- The leading part of the squared norms is the squared norms: narrowing and widening change nothing over the
    extended reals. -/
theorem hiCol_apply (x : FVec Ideal S8x4096x3 .f32) (b : Fin 8) (n : Fin 4096) (u : Fin 1) :
    hiCol x (ix3 b n u) = Cert.Chamfer.sq x b n := by
  unfold hiCol
  rw [extf_apply, truncf_apply, sqCol_apply]

/-- The remainder is the squared norm less itself. -/
theorem loCol_apply (x : FVec Ideal S8x4096x3 .f32) (b : Fin 8) (n : Fin 4096) (u : Fin 1) :
    loCol x (ix3 b n u) = Cert.Chamfer.sq x b n - Cert.Chamfer.sq x b n := by
  unfold loCol
  rw [subf_apply, sqCol_apply, hiCol_apply]

/-- The column of ones reads one. -/
theorem onesCol_apply (j : S8x4096x1.Idx) : onesCol j = 1 := by
  unfold onesCol
  rw [broadcastInDim_scalar_apply, constant_apply, Ideal.ofBits_one_f32]

/-- The column of zeros reads zero. -/
theorem zerosCol_apply (j : S8x4096x1.Idx) : zerosCol j = 0 := by
  unfold zerosCol
  rw [broadcastInDim_scalar_apply, constant_apply, Ideal.ofBits_zero_f32]

/-- The scaled cloud reads minus two times the cloud. -/
theorem scaled_apply (x : FVec Ideal S8x4096x3 .f32) (j : S8x4096x3.Idx) : scaled x j = -2 * x j := by
  unfold scaled
  rw [mulf_apply, broadcastInDim_scalar_apply, constant_apply, ofBits_neg_two]

/-! ## A concatenation along the last axis at an index -/

/-- A concatenation into [8, 4096, 8] along the last axis, read at (b, n, d): piece k, of width w, whose span
    starts at pre, at (b, n, e) when pre + e = d. -/
theorem concat_piece {α : Type} (xs : List ((s : Shape) × (s.Idx → α)))
    (h : Shape.Concatenates (xs.map (·.1)) S8x4096x8 2) (b : Fin 8) (n : Fin 4096) (d : Fin 8)
    (k : Nat) (hk : k < xs.length) (w : Nat) (x₁ : (⟨3, ![8, 4096, w]⟩ : Shape).Idx → α)
    (hxk : xs[k] = ⟨⟨3, ![8, 4096, w]⟩, x₁⟩) (pre : Nat)
    (hpre : (((xs.take k).map (·.1)).map fun s =>
      if h : s.rank = S8x4096x8.rank then s.size ((2 : Fin S8x4096x8.rank).cast h.symm) else 0).sum = pre)
    (e : Fin w) (ha : pre + e.val = d.val) :
    concatenate S8x4096x8 2 xs h (ix3 b n d) = x₁ (ix3 b n e) :=
  concatenate_apply_piece 2 xs h (ix3 b n d) k hk _ x₁ hxk rfl pre hpre (ix3 b n e)
    (fun c hc => match c, hc with
      | ⟨0, _⟩, _ => rfl
      | ⟨1, _⟩, _ => rfl
      | ⟨2, _⟩, hc => absurd rfl hc) ha

/-! ## The operands at an index -/

/-- The first operand at (b, n, d) is the d-th augmented coordinate of point n of the first cloud. -/
theorem augLeft_apply (x1 : FVec Ideal S8x4096x3 .f32) (b : Fin 8) (n : Fin 4096) (d : Fin 8) :
    augLeft x1 (ix3 b n d) = Cert.Chamfer.aug1 x1 b n d := by
  unfold augLeft
  match d with
  | ⟨0, hd⟩ => exact concat_piece _ _ b n ⟨0, hd⟩ 0 (by simp) 3 x1 rfl 0 rfl (0 : Fin 3) rfl
  | ⟨1, hd⟩ => exact concat_piece _ _ b n ⟨1, hd⟩ 0 (by simp) 3 x1 rfl 0 rfl (1 : Fin 3) rfl
  | ⟨2, hd⟩ => exact concat_piece _ _ b n ⟨2, hd⟩ 0 (by simp) 3 x1 rfl 0 rfl (2 : Fin 3) rfl
  | ⟨3, hd⟩ =>
    exact (concat_piece _ _ b n ⟨3, hd⟩ 1 (by simp) 1 (hiCol x1) rfl 3 rfl (0 : Fin 1) rfl).trans
      (hiCol_apply x1 b n 0)
  | ⟨4, hd⟩ =>
    exact (concat_piece _ _ b n ⟨4, hd⟩ 2 (by simp) 1 (loCol x1) rfl 4 rfl (0 : Fin 1) rfl).trans
      (loCol_apply x1 b n 0)
  | ⟨5, hd⟩ =>
    exact (concat_piece _ _ b n ⟨5, hd⟩ 3 (by simp) 1 onesCol rfl 5 rfl (0 : Fin 1) rfl).trans
      (onesCol_apply _)
  | ⟨6, hd⟩ =>
    exact (concat_piece _ _ b n ⟨6, hd⟩ 4 (by simp) 1 onesCol rfl 6 rfl (0 : Fin 1) rfl).trans
      (onesCol_apply _)
  | ⟨7, hd⟩ =>
    exact (concat_piece _ _ b n ⟨7, hd⟩ 5 (by simp) 1 zerosCol rfl 7 rfl (0 : Fin 1) rfl).trans
      (zerosCol_apply _)
  | ⟨k + 8, hd⟩ => exact absurd hd (by omega)

/-- The augmented second cloud, point-major, at (b, m, d) is the d-th augmented coordinate of point m. -/
theorem augRight_apply (x2 : FVec Ideal S8x4096x3 .f32) (b : Fin 8) (m : Fin 4096) (d : Fin 8) :
    augRight x2 (ix3 b m d) = Cert.Chamfer.aug2 x2 b m d := by
  unfold augRight
  match d with
  | ⟨0, hd⟩ =>
    exact (concat_piece _ _ b m ⟨0, hd⟩ 0 (by simp) 3 (scaled x2) rfl 0 rfl (0 : Fin 3) rfl).trans
      (scaled_apply x2 _)
  | ⟨1, hd⟩ =>
    exact (concat_piece _ _ b m ⟨1, hd⟩ 0 (by simp) 3 (scaled x2) rfl 0 rfl (1 : Fin 3) rfl).trans
      (scaled_apply x2 _)
  | ⟨2, hd⟩ =>
    exact (concat_piece _ _ b m ⟨2, hd⟩ 0 (by simp) 3 (scaled x2) rfl 0 rfl (2 : Fin 3) rfl).trans
      (scaled_apply x2 _)
  | ⟨3, hd⟩ =>
    exact (concat_piece _ _ b m ⟨3, hd⟩ 1 (by simp) 1 onesCol rfl 3 rfl (0 : Fin 1) rfl).trans
      (onesCol_apply _)
  | ⟨4, hd⟩ =>
    exact (concat_piece _ _ b m ⟨4, hd⟩ 2 (by simp) 1 onesCol rfl 4 rfl (0 : Fin 1) rfl).trans
      (onesCol_apply _)
  | ⟨5, hd⟩ =>
    exact (concat_piece _ _ b m ⟨5, hd⟩ 3 (by simp) 1 (hiCol x2) rfl 5 rfl (0 : Fin 1) rfl).trans
      (hiCol_apply x2 b m 0)
  | ⟨6, hd⟩ =>
    exact (concat_piece _ _ b m ⟨6, hd⟩ 4 (by simp) 1 (loCol x2) rfl 6 rfl (0 : Fin 1) rfl).trans
      (loCol_apply x2 b m 0)
  | ⟨7, hd⟩ =>
    exact (concat_piece _ _ b m ⟨7, hd⟩ 5 (by simp) 1 zerosCol rfl 7 rfl (0 : Fin 1) rfl).trans
      (zerosCol_apply _)
  | ⟨k + 8, hd⟩ => exact absurd hd (by omega)

/-- The second operand at (b, d, m) is the d-th augmented coordinate of point m of the second cloud. -/
theorem augRightT_apply (x2 : FVec Ideal S8x4096x3 .f32) (b : Fin 8) (d : Fin 8) (m : Fin 4096) :
    augRightT x2 (ix3 b d m) = Cert.Chamfer.aug2 x2 b m d :=
  (transpose_ix3_021_apply (augRight x2) transposes_S8x4096x8_S8x8x4096_0_2_1 b d m).trans
    (augRight_apply x2 b m d)

end Cert.Chamfer.Prefix

end
-- ==== Proof.HostTail.lean ====
/-
  The last host operations of the program as one function of the two result arrays: from each array the entries
  at `(b, 0, 0)` are taken, summed over the 8 batch entries from zero and divided by the number of points; the two
  quotients are added. Read at the scalar index this is the sum of the two means.
-/
import proofs.«119373_g85555748536873_cont_9to1_m_146_14_alg».proof.KernelIdeal
import proofs.«119373_g85555748536873_cont_9to1_m_146_14_alg».proof.Proof.Spec
import Idealize.ShloMosaic.PureOps.Ideal.Laws
import Idealize.ShloMosaic.Lib.Pipeline.Value
import Idealize.ShloMosaic.Lib.ValueIdx

noncomputable section

open scoped BigOperators

open Idealize.ShloMosaic Idealize.ShloMosaic.ValueIdx

namespace Cert.Chamfer.Tail

open Cert.KernelIdeal Cert.KernelIdeal.Facts₀ Cert.KernelIdeal.Facts

variable [Cert.KernelIdeal.Facts]

/-- One result array's share: slice out the entries `(b, 0, 0)`, flatten to 8 values, sum them from zero, divide by
    the number of points. -/
def half (o : FVec Ideal S8x1x128 .f32) : FVec Ideal S_ .f32 :=
  Host.divf (F := Ideal)
    (Host.reduceAdd (F := Ideal)
      (shapeCast S8 (extractStridedSlice S8x1x1 ![0, 0, 0] o slices_S8x1x128_S8x1x1_0_0_0) shapeCasts_S8x1x1_S8)
      (constant (F := Ideal) S_ .f32 0x00000000#32) reducesTo_S8_S_d0 h_S_)
    (constant (F := Ideal) S_ .f32 0x47000000#32)

/-- The whole tail, operation by operation. -/
def tail (o2 o3 : FVec Ideal S8x1x128 .f32) : FVec Ideal S_ .f32 :=
  addf
    (Host.divf (F := Ideal)
      (Host.reduceAdd (F := Ideal)
        (shapeCast S8 (extractStridedSlice S8x1x1 ![0, 0, 0] o2 slices_S8x1x128_S8x1x1_0_0_0) shapeCasts_S8x1x1_S8)
        (constant (F := Ideal) S_ .f32 0x00000000#32) reducesTo_S8_S_d0 h_S_)
      (constant (F := Ideal) S_ .f32 0x47000000#32))
    (Host.divf (F := Ideal)
      (Host.reduceAdd (F := Ideal)
        (shapeCast S8 (extractStridedSlice S8x1x1 ![0, 0, 0] o3 slices_S8x1x128_S8x1x1_0_0_0) shapeCasts_S8x1x1_S8)
        (constant (F := Ideal) S_ .f32 0x00000000#32) reducesTo_S8_S_d0 h_S_)
      (constant (F := Ideal) S_ .f32 0x47000000#32))

theorem tail_eq_half (o2 o3 : FVec Ideal S8x1x128 .f32) : tail o2 o3 = addf (half o2) (half o3) := rfl

/-- The flattened slice at `b` is the array at `(b, 0, 0)`. -/
theorem flat_apply (o : FVec Ideal S8x1x128 .f32) (b : Fin 8) :
    shapeCast S8 (extractStridedSlice S8x1x1 ![0, 0, 0] o slices_S8x1x128_S8x1x1_0_0_0) shapeCasts_S8x1x1_S8 (ix1 b)
      = o (ix3 b 0 0) := by
  refine (shapeCast_apply _ shapeCasts_S8x1x1_S8 (ix1 b) (ix3 b 0 0) ?_).trans ?_
  · rw [Shape.rowMajor_val_three, Shape.rowMajor_val_one]
    show (b.val * 1 + 0) * 1 + 0 = b.val
    omega
  · refine extractStridedSlice_apply _ o slices_S8x1x128_S8x1x1_0_0_0 (ix3 b 0 0) (ix3 b 0 0) fun a => ?_
    match a with
    | ⟨0, _⟩ => show b.val = 0 + b.val; omega
    | ⟨1, _⟩ => rfl
    | ⟨2, _⟩ => rfl

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- One share at the scalar index: the sum of the 8 entries `(b, 0, 0)` divided by the number of points. -/
theorem half_apply (o : FVec Ideal S8x1x128 .f32) (j : S_.Idx) :
    half o j = Ideal.div (∑ b : Fin 8, o (ix3 b 0 0)) count := by
  unfold half count
  show Ideal.div (Ideal.hostReduceAdd reducesTo_S8_S_d0 _ (Ideal.ofBits .f32 0x00000000#32) j)
      (Ideal.ofBits .f32 0x47000000#32) = _
  rw [Ideal.hostReduceAdd_total reducesTo_S8_S_d0 (fun b => b.elim0), Ideal.ofBits_zero_f32, zero_add]
  congr 1
  show ∑ i : (⟨1, ![8]⟩ : Shape).Idx, _ = _
  rw [sum_idx1]
  exact Finset.sum_congr rfl fun b _ => flat_apply o b

/-- The tail at the scalar index: the two means, added. -/
theorem tail_apply (o2 o3 : FVec Ideal S8x1x128 .f32) (j : S_.Idx) :
    tail o2 o3 j = Ideal.div (∑ b : Fin 8, o2 (ix3 b 0 0)) count + Ideal.div (∑ b : Fin 8, o3 (ix3 b 0 0)) count := by
  rw [tail_eq_half, addf_apply, half_apply, half_apply]

end Cert.Chamfer.Tail

end
-- ==== Proof.Algebra.lean ====
/-
  Algebra of the chamfer distance over the extended reals: the augmented 8-term dot product equals the pairwise
  squared distance when every coordinate is a real number, and the lattice facts that move a clamp at zero and a
  reindexing through a finite infimum.
-/
import proofs.«119373_g85555748536873_cont_9to1_m_146_14_alg».proof.Proof.Spec

noncomputable section

open scoped BigOperators

namespace Cert.Chamfer

open Idealize.ShloMosaic Idealize.ShloMosaic.ValueIdx

/-! ### The augmented coordinates, entry by entry -/

theorem aug1_0 (x1 : Cloud) (b : Fin 8) (n : Fin 4096) : aug1 x1 b n 0 = x1 (ix3 b n 0) := rfl
theorem aug1_1 (x1 : Cloud) (b : Fin 8) (n : Fin 4096) : aug1 x1 b n 1 = x1 (ix3 b n 1) := rfl
theorem aug1_2 (x1 : Cloud) (b : Fin 8) (n : Fin 4096) : aug1 x1 b n 2 = x1 (ix3 b n 2) := rfl
theorem aug1_3 (x1 : Cloud) (b : Fin 8) (n : Fin 4096) : aug1 x1 b n 3 = sq x1 b n := rfl
theorem aug1_4 (x1 : Cloud) (b : Fin 8) (n : Fin 4096) : aug1 x1 b n 4 = sq x1 b n - sq x1 b n := rfl
theorem aug1_5 (x1 : Cloud) (b : Fin 8) (n : Fin 4096) : aug1 x1 b n 5 = 1 := rfl
theorem aug1_6 (x1 : Cloud) (b : Fin 8) (n : Fin 4096) : aug1 x1 b n 6 = 1 := rfl
theorem aug1_7 (x1 : Cloud) (b : Fin 8) (n : Fin 4096) : aug1 x1 b n 7 = 0 := rfl

theorem aug2_0 (x2 : Cloud) (b : Fin 8) (m : Fin 4096) : aug2 x2 b m 0 = -2 * x2 (ix3 b m 0) := rfl
theorem aug2_1 (x2 : Cloud) (b : Fin 8) (m : Fin 4096) : aug2 x2 b m 1 = -2 * x2 (ix3 b m 1) := rfl
theorem aug2_2 (x2 : Cloud) (b : Fin 8) (m : Fin 4096) : aug2 x2 b m 2 = -2 * x2 (ix3 b m 2) := rfl
theorem aug2_3 (x2 : Cloud) (b : Fin 8) (m : Fin 4096) : aug2 x2 b m 3 = 1 := rfl
theorem aug2_4 (x2 : Cloud) (b : Fin 8) (m : Fin 4096) : aug2 x2 b m 4 = 1 := rfl
theorem aug2_5 (x2 : Cloud) (b : Fin 8) (m : Fin 4096) : aug2 x2 b m 5 = sq x2 b m := rfl
theorem aug2_6 (x2 : Cloud) (b : Fin 8) (m : Fin 4096) : aug2 x2 b m 6 = sq x2 b m - sq x2 b m := rfl
theorem aug2_7 (x2 : Cloud) (b : Fin 8) (m : Fin 4096) : aug2 x2 b m 7 = 0 := rfl

/-- The dot product of the augmented rows, written out over its 8 terms. -/
theorem dotAug_expand (x1 x2 : Cloud) (b : Fin 8) (n m : Fin 4096) :
    dotAug x1 x2 b n m =
      x1 (ix3 b n 0) * (-2 * x2 (ix3 b m 0)) + x1 (ix3 b n 1) * (-2 * x2 (ix3 b m 1))
        + x1 (ix3 b n 2) * (-2 * x2 (ix3 b m 2)) + sq x1 b n * 1 + (sq x1 b n - sq x1 b n) * 1
        + 1 * sq x2 b m + 1 * (sq x2 b m - sq x2 b m) + 0 * 0 := by
  unfold dotAug
  rw [Fin.sum_univ_eight, aug1_0, aug1_1, aug1_2, aug1_3, aug1_4, aug1_5, aug1_6, aug1_7,
    aug2_0, aug2_1, aug2_2, aug2_3, aug2_4, aug2_5, aug2_6, aug2_7]

/-- The squared norm of a point with real coordinates is the coercion of the real squared norm. -/
theorem sq_coe (r : (⟨3, ![8, 4096, 3]⟩ : Shape).Idx → ℝ) (b : Fin 8) (n : Fin 4096) :
    sq (fun i => (r i : EReal)) b n
      = ((r (ix3 b n 0) * r (ix3 b n 0) + r (ix3 b n 1) * r (ix3 b n 1) + r (ix3 b n 2) * r (ix3 b n 2) : ℝ) : EReal) := by
  unfold sq
  rw [Fin.sum_univ_three]
  push_cast
  rfl

/-- The inner product of two points with real coordinates is the coercion of the real inner product. -/
theorem inner_coe (r1 r2 : (⟨3, ![8, 4096, 3]⟩ : Shape).Idx → ℝ) (b : Fin 8) (n m : Fin 4096) :
    inner (fun i => (r1 i : EReal)) (fun i => (r2 i : EReal)) b n m
      = ((r1 (ix3 b n 0) * r2 (ix3 b m 0) + r1 (ix3 b n 1) * r2 (ix3 b m 1) + r1 (ix3 b n 2) * r2 (ix3 b m 2) : ℝ) : EReal) := by
  unfold inner
  rw [Fin.sum_univ_three]
  push_cast
  rfl

/-- On clouds with real coordinates the augmented dot product is the pairwise squared distance. -/
theorem dotAug_eq_pair (x1 x2 : Cloud) (h1 : ∀ i, ∃ r : ℝ, x1 i = (r : EReal))
    (h2 : ∀ i, ∃ r : ℝ, x2 i = (r : EReal)) (b : Fin 8) (n m : Fin 4096) :
    dotAug x1 x2 b n m = pair x1 x2 b n m := by
  choose r1 hr1 using h1
  choose r2 hr2 using h2
  obtain rfl : x1 = fun i => (r1 i : EReal) := funext hr1
  obtain rfl : x2 = fun i => (r2 i : EReal) := funext hr2
  rw [dotAug_expand]
  unfold pair
  rw [sq_coe, sq_coe, inner_coe]
  have h2c : (2 : EReal) = ((2 : ℝ) : EReal) := by norm_cast
  have h1c : (1 : EReal) = ((1 : ℝ) : EReal) := by norm_cast
  have h0c : (0 : EReal) = ((0 : ℝ) : EReal) := by norm_cast
  rw [h2c, h1c, h0c]
  simp only [← EReal.coe_neg, ← EReal.coe_mul, ← EReal.coe_add, ← EReal.coe_sub]
  congr 1
  ring

/-! ### Finite infima: reindexing and the clamp at zero -/

/-- Reindexing a finite infimum along a surjection does not change it. -/
theorem inf_comp_surj {ι κ : Type*} [Fintype ι] [Fintype κ] (f : κ → EReal) (g : ι → κ)
    (hg : Function.Surjective g) : (Finset.univ.inf fun i => f (g i)) = Finset.univ.inf f := by
  apply le_antisymm
  · refine Finset.le_inf fun k _ => ?_
    obtain ⟨i, rfl⟩ := hg k
    exact Finset.inf_le (f := fun i => f (g i)) (Finset.mem_univ i)
  · exact Finset.le_inf fun i _ => Finset.inf_le (Finset.mem_univ (g i))

/-- The clamp at zero moves inside a finite infimum. -/
theorem max_inf_zero {κ : Type*} [Fintype κ] (f : κ → EReal) :
    max (Finset.univ.inf f) 0 = Finset.univ.inf fun k => max (f k) 0 :=
  Finset.inf_sup_distrib_right Finset.univ f 0

/-- More generally the clamp at any level moves inside a finite infimum over any finite set. -/
theorem max_finset_inf {κ : Type*} (s : Finset κ) (f : κ → EReal) (a : EReal) :
    max (s.inf f) a = s.inf fun k => max (f k) a :=
  Finset.inf_sup_distrib_right s f a

theorem rowNear_eq (x1 x2 : Cloud) (b : Fin 8) (n : Fin 4096) :
    rowNear x1 x2 b n = max (Finset.univ.inf fun m : Fin 4096 => pair x1 x2 b n m) 0 := by
  unfold rowNear
  rw [max_inf_zero]

theorem colNear_eq (x1 x2 : Cloud) (b : Fin 8) (m : Fin 4096) :
    colNear x1 x2 b m = max (Finset.univ.inf fun n : Fin 4096 => pair x1 x2 b n m) 0 := by
  unfold colNear
  rw [max_inf_zero]

/-! ### Minima, the top element and folds -/

theorem min_top_left' (a : EReal) : min ⊤ a = a := min_eq_right le_top

theorem min_top_right' (a : EReal) : min a ⊤ = a := min_eq_left le_top

/-- Folding `min` over a list from the top element is the infimum over the list's entries. -/
theorem foldr_min_top (l : List EReal) : l.foldr min ⊤ = l.toFinset.inf id := by
  induction l with
  | nil => simp
  | cons a l ih => rw [List.foldr_cons, List.toFinset_cons, Finset.inf_insert, ih]; rfl

/-- The same for the values of a function along a list of indices. -/
theorem foldr_min_top_map {κ : Type*} [DecidableEq κ] (f : κ → EReal) (l : List κ) :
    l.foldr (fun k acc => min (f k) acc) ⊤ = l.toFinset.inf f := by
  induction l with
  | nil => simp
  | cons a l ih => rw [List.foldr_cons, List.toFinset_cons, Finset.inf_insert, ih]

/-- A two-way minimum of two finite infima is the infimum over the union. -/
theorem min_inf_union {κ : Type*} [DecidableEq κ] (s t : Finset κ) (f : κ → EReal) :
    min (s.inf f) (t.inf f) = (s ∪ t).inf f := (Finset.inf_union).symm

/-- An infimum over a product index splits into nested infima. -/
theorem inf_univ_prod {α β : Type*} [Fintype α] [Fintype β] (f : α → β → EReal) :
    (Finset.univ.inf fun p : α × β => f p.1 p.2) = Finset.univ.inf fun a => Finset.univ.inf fun b => f a b := by
  rw [← Finset.univ_product_univ, Finset.inf_product_left]

/-- Nested infima may be exchanged. -/
theorem inf_univ_comm {α β : Type*} [Fintype α] [Fintype β] (f : α → β → EReal) :
    (Finset.univ.inf fun a => Finset.univ.inf fun b => f a b) = Finset.univ.inf fun b => Finset.univ.inf fun a => f a b :=
  Finset.inf_comm _ _ _

/-- Reindexing a finite infimum along a bijection. -/
theorem inf_comp_equiv {ι κ : Type*} [Fintype ι] [Fintype κ] (f : κ → EReal) (e : ι ≃ κ) :
    (Finset.univ.inf fun i => f (e i)) = Finset.univ.inf f := inf_comp_surj f e e.surjective

/-- The minimum of an infimum with one more value: the infimum over an index set with one more point. -/
theorem min_inf_univ_option {κ : Type*} [Fintype κ] (f : κ → EReal) (a : EReal) :
    min a (Finset.univ.inf f) = Finset.univ.inf fun o : Option κ => o.elim a f := by
  apply le_antisymm
  · refine Finset.le_inf fun o _ => ?_
    cases o with
    | none => exact min_le_left _ _
    | some k => exact (min_le_right _ _).trans (Finset.inf_le (Finset.mem_univ k))
  · refine le_min ?_ (Finset.le_inf fun k _ => ?_)
    · exact Finset.inf_le (f := fun o : Option κ => o.elim a f) (Finset.mem_univ none)
    · exact Finset.inf_le (f := fun o : Option κ => o.elim a f) (Finset.mem_univ (some k))

end Cert.Chamfer

end
-- ==== Proof.LibKernelReads.lean ====
/-
  A kernel-side operation read at an index written by coordinates: a plain matrix product [n, kk] x [kk, p] into a
  zero accumulator, at the exact values, reads at (i, j) the sum over the contracted coordinate k of
  lhs (i, k) * rhs (k, j).
-/
import proofs.«119373_g85555748536873_cont_9to1_m_146_14_alg».proof.Proof.LibLayoutReads

noncomputable section

open scoped BigOperators

namespace Idealize.ShloMosaic.LayoutReads

open Idealize.ShloMosaic Idealize.ShloMosaic.ValueIdx

variable {α : Type}

/-- A plain matrix product [n, kk] x [kk, p] into the zero accumulator, at the exact values, read at (i, j). -/
theorem matmul_plain_zero_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    FloatOps.matmul d prec lhs rhs (constant (F := Ideal) ⟨2, ![n, p]⟩ .f32 0x00000000#32) (ix2 i j)
      = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  rw [Ideal.matmul_constant_zero_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.TripRows.lean ====
/-
  The block of rows one trip of the kernel's loop stores, read at an index: for row r of the trip's 256 rows and
  lane l of 128, the minimum over the 32 lane groups g of the product of row r of the first operand with column
  g * 128 + l of the second operand.
-/
import proofs.«119373_g85555748536873_cont_9to1_m_146_14_alg».proof.Proof.Gen.KernelIdeal.Loops
import proofs.«119373_g85555748536873_cont_9to1_m_146_14_alg».proof.Proof.LibKernelReads
import Idealize.ShloMosaic.Lib.ValueIdx
import Idealize.ShloMosaic.Lib.ValueLayout
import Idealize.ShloMosaic.Lib.Pipeline.Value

noncomputable section

open scoped BigOperators

namespace Cert.Chamfer.Trip

open Idealize.ShloMosaic Idealize.ShloMosaic.ValueIdx
open Cert.KernelIdeal Cert.KernelIdeal.Facts₀ Cert.KernelIdeal.Gen

/-! ## One chunk's products and their minimum over the four lane groups -/

/-- The product of row r of a [256, 8] block with column col of an [8, 4096] array. -/
def dotCol (A : FVec Ideal S256x8 .f32) (v1 : FVec Ideal S8x4096 .f32) (r : Fin 256) (col : Fin 4096) : EReal :=
  ∑ d : Fin 8, A (ix2 r d) * v1 (ix2 d col)

/-- The product of row r with the column at lane l of lane group g: column g * 128 + l. -/
def lane (A : FVec Ideal S256x8 .f32) (v1 : FVec Ideal S8x4096 .f32) (r : Fin 256) (l : Fin 128) (g : Fin 32) : EReal :=
  dotCol A v1 r ⟨g.val * 128 + l.val, by have := g.isLt; have := l.isLt; omega⟩

/-- The matrix product of the rows with a chunk of 512 columns starting at off, into the zero accumulator, reads at
    (r, j) the product of row r with column off + j. -/
theorem prod_apply (off : Nat) (hs : S8x4096.Slices ![0, off] S8x512) (A : FVec Ideal S256x8 .f32)
    (v1 : FVec Ideal S8x4096 .f32) (r : Fin 256) (j : Fin 512) (hj : off + j.val < 4096) :
    matmul dot_S256x8_S8x512_S256x512_1_0_0_1_n_n none A (extractStridedSlice S8x512 ![0, off] v1 hs)
        (constant (F := Ideal) S256x512 .f32 0x00000000#32) (ix2 r j)
      = dotCol A v1 r ⟨off + j.val, hj⟩ := by
  refine (LayoutReads.matmul_plain_zero_apply dot_S256x8_S8x512_S256x512_1_0_0_1_n_n rfl rfl rfl rfl rfl rfl none A _ r j).trans ?_
  unfold dotCol
  refine Finset.sum_congr rfl fun d _ => ?_
  congr 1
  exact extractStridedSlice_apply _ v1 hs (ix2 d j) (ix2 d ⟨off + j.val, hj⟩)
    (fun a => match a with | ⟨0, _⟩ => (Nat.zero_add _).symm | ⟨1, _⟩ => rfl)

/-- A slice of 128 lanes starting at lane o of a [256, 512] array reads at (r, l) the array at (r, o + l). -/
theorem slice_lane (o : Nat) (h : S256x512.Slices ![0, o] S256x128) (P : FVec Ideal S256x512 .f32) (r : Fin 256)
    (l : Fin 128) (hl : o + l.val < 512) :
    extractStridedSlice S256x128 ![0, o] P h (ix2 r l) = P (ix2 r ⟨o + l.val, hl⟩) :=
  extractStridedSlice_apply _ P h _ _ (fun a => match a with | ⟨0, _⟩ => (Nat.zero_add _).symm | ⟨1, _⟩ => rfl)

/-- The product at lane o + l of a chunk starting at column off is the product at lane l of lane group g, when
    off + o = g * 128. -/
theorem prod_lane (off : Nat) (hs : S8x4096.Slices ![0, off] S8x512) (A : FVec Ideal S256x8 .f32)
    (v1 : FVec Ideal S8x4096 .f32) (r : Fin 256) (l : Fin 128) (o : Nat) (ho : o + l.val < 512) (g : Fin 32)
    (e : off + o = g.val * 128) :
    matmul dot_S256x8_S8x512_S256x512_1_0_0_1_n_n none A (extractStridedSlice S8x512 ![0, off] v1 hs) (constant (F := Ideal) S256x512 .f32 0x00000000#32) (ix2 r ⟨o + l.val, ho⟩)
      = lane A v1 r l g := by
  have hj : off + (o + l.val) < 4096 := by have := g.isLt; have := l.isLt; omega
  refine (prod_apply off hs A v1 r ⟨o + l.val, ho⟩ hj).trans ?_
  unfold lane
  congr 1
  exact Fin.ext (by show off + (o + l.val) = g.val * 128 + l.val; omega)

/-- The elementwise minimum of the four lane groups of a chunk's products, at (r, l). -/
theorem chunk_apply (off : Nat) (hs : S8x4096.Slices ![0, off] S8x512) (A : FVec Ideal S256x8 .f32)
    (v1 : FVec Ideal S8x4096 .f32) (r : Fin 256) (l : Fin 128) (g0 g1 g2 g3 : Fin 32)
    (e0 : off + 0 = g0.val * 128) (e1 : off + 128 = g1.val * 128) (e2 : off + 256 = g2.val * 128)
    (e3 : off + 384 = g3.val * 128) :
    minimumf
        (minimumf
          (extractStridedSlice S256x128 ![0, 0] (matmul dot_S256x8_S8x512_S256x512_1_0_0_1_n_n none A (extractStridedSlice S8x512 ![0, off] v1 hs) (constant (F := Ideal) S256x512 .f32 0x00000000#32)) Facts₀.slices_S256x512_o0_0_S256x128)
          (extractStridedSlice S256x128 ![0, 128] (matmul dot_S256x8_S8x512_S256x512_1_0_0_1_n_n none A (extractStridedSlice S8x512 ![0, off] v1 hs) (constant (F := Ideal) S256x512 .f32 0x00000000#32)) Facts₀.slices_S256x512_o0_128_S256x128))
        (minimumf
          (extractStridedSlice S256x128 ![0, 256] (matmul dot_S256x8_S8x512_S256x512_1_0_0_1_n_n none A (extractStridedSlice S8x512 ![0, off] v1 hs) (constant (F := Ideal) S256x512 .f32 0x00000000#32)) Facts₀.slices_S256x512_o0_256_S256x128)
          (extractStridedSlice S256x128 ![0, 384] (matmul dot_S256x8_S8x512_S256x512_1_0_0_1_n_n none A (extractStridedSlice S8x512 ![0, off] v1 hs) (constant (F := Ideal) S256x512 .f32 0x00000000#32)) Facts₀.slices_S256x512_o0_384_S256x128))
        (ix2 r l)
      = min (min (lane A v1 r l g0) (lane A v1 r l g1)) (min (lane A v1 r l g2) (lane A v1 r l g3)) := by
  have hl := l.isLt
  simp only [minimumf_apply]
  rw [slice_lane 0 _ _ r l (by omega), slice_lane 128 _ _ r l (by omega), slice_lane 256 _ _ r l (by omega),
    slice_lane 384 _ _ r l (by omega)]
  rw [prod_lane off hs A v1 r l 0 _ g0 e0, prod_lane off hs A v1 r l 128 _ g1 e1,
    prod_lane off hs A v1 r l 256 _ g2 e2, prod_lane off hs A v1 r l 384 _ g3 e3]

/-! ## The eight chunks' payloads at an index -/

/-- Chunk 0: the minimum over lane groups 0 … 3. -/
theorem pay9_apply (v1 : FVec Ideal S8x4096 .f32) (v30 : Vec Ideal S1x256x8 .f32) (r : Fin 256) (l : Fin 128) :
    k0_pay9 v1 v30 (ix2 r l)
      = (min (min (lane (k0_pay7 v30) v1 r l ⟨0, by omega⟩) (lane (k0_pay7 v30) v1 r l ⟨1, by omega⟩))
        (min (lane (k0_pay7 v30) v1 r l ⟨2, by omega⟩) (lane (k0_pay7 v30) v1 r l ⟨3, by omega⟩))) := by
  unfold k0_pay9 k0_pay8
  exact chunk_apply 0 _ (k0_pay7 v30) v1 r l _ _ _ _ rfl rfl rfl rfl

/-- Chunk 1: the running minimum with the minimum over lane groups 4 … 7. -/
theorem pay34_apply (v1 : FVec Ideal S8x4096 .f32) (A : FVec Ideal S256x8 .f32) (prev : FVec Ideal S256x128 .f32)
    (r : Fin 256) (l : Fin 128) :
    k0_pay34 v1 A prev (ix2 r l)
      = min (prev (ix2 r l))
      (min (min (lane A v1 r l ⟨4, by omega⟩) (lane A v1 r l ⟨5, by omega⟩))
        (min (lane A v1 r l ⟨6, by omega⟩) (lane A v1 r l ⟨7, by omega⟩))) := by
  unfold k0_pay34 k0_pay33
  exact congrArg (min (prev (ix2 r l))) (chunk_apply 512 _ A v1 r l _ _ _ _ rfl rfl rfl rfl)

/-- Chunk 2: the running minimum with the minimum over lane groups 8 … 11. -/
theorem pay65_apply (v1 : FVec Ideal S8x4096 .f32) (A : FVec Ideal S256x8 .f32) (prev : FVec Ideal S256x128 .f32)
    (r : Fin 256) (l : Fin 128) :
    k0_pay65 v1 A prev (ix2 r l)
      = min (prev (ix2 r l))
      (min (min (lane A v1 r l ⟨8, by omega⟩) (lane A v1 r l ⟨9, by omega⟩))
        (min (lane A v1 r l ⟨10, by omega⟩) (lane A v1 r l ⟨11, by omega⟩))) := by
  unfold k0_pay65 k0_pay64
  exact congrArg (min (prev (ix2 r l))) (chunk_apply 1024 _ A v1 r l _ _ _ _ rfl rfl rfl rfl)

/-- Chunk 3: the running minimum with the minimum over lane groups 12 … 15. -/
theorem pay82_apply (v1 : FVec Ideal S8x4096 .f32) (A : FVec Ideal S256x8 .f32) (prev : FVec Ideal S256x128 .f32)
    (r : Fin 256) (l : Fin 128) :
    k0_pay82 v1 A prev (ix2 r l)
      = min (prev (ix2 r l))
      (min (min (lane A v1 r l ⟨12, by omega⟩) (lane A v1 r l ⟨13, by omega⟩))
        (min (lane A v1 r l ⟨14, by omega⟩) (lane A v1 r l ⟨15, by omega⟩))) := by
  unfold k0_pay82 k0_pay81
  exact congrArg (min (prev (ix2 r l))) (chunk_apply 1536 _ A v1 r l _ _ _ _ rfl rfl rfl rfl)

/-- Chunk 4: the running minimum with the minimum over lane groups 16 … 19. -/
theorem pay89_apply (v1 : FVec Ideal S8x4096 .f32) (A : FVec Ideal S256x8 .f32) (prev : FVec Ideal S256x128 .f32)
    (r : Fin 256) (l : Fin 128) :
    k0_pay89 v1 A prev (ix2 r l)
      = min (prev (ix2 r l))
      (min (min (lane A v1 r l ⟨16, by omega⟩) (lane A v1 r l ⟨17, by omega⟩))
        (min (lane A v1 r l ⟨18, by omega⟩) (lane A v1 r l ⟨19, by omega⟩))) := by
  unfold k0_pay89 k0_pay88
  exact congrArg (min (prev (ix2 r l))) (chunk_apply 2048 _ A v1 r l _ _ _ _ rfl rfl rfl rfl)

/-- Chunk 5: the running minimum with the minimum over lane groups 20 … 23. -/
theorem pay110_apply (v1 : FVec Ideal S8x4096 .f32) (A : FVec Ideal S256x8 .f32) (prev : FVec Ideal S256x128 .f32)
    (r : Fin 256) (l : Fin 128) :
    k0_pay110 v1 A prev (ix2 r l)
      = min (prev (ix2 r l))
      (min (min (lane A v1 r l ⟨20, by omega⟩) (lane A v1 r l ⟨21, by omega⟩))
        (min (lane A v1 r l ⟨22, by omega⟩) (lane A v1 r l ⟨23, by omega⟩))) := by
  unfold k0_pay110 k0_pay109
  exact congrArg (min (prev (ix2 r l))) (chunk_apply 2560 _ A v1 r l _ _ _ _ rfl rfl rfl rfl)

/-- Chunk 6: the running minimum with the minimum over lane groups 24 … 27. -/
theorem pay145_apply (v1 : FVec Ideal S8x4096 .f32) (A : FVec Ideal S256x8 .f32) (prev : FVec Ideal S256x128 .f32)
    (r : Fin 256) (l : Fin 128) :
    k0_pay145 v1 A prev (ix2 r l)
      = min (prev (ix2 r l))
      (min (min (lane A v1 r l ⟨24, by omega⟩) (lane A v1 r l ⟨25, by omega⟩))
        (min (lane A v1 r l ⟨26, by omega⟩) (lane A v1 r l ⟨27, by omega⟩))) := by
  unfold k0_pay145 k0_pay144
  exact congrArg (min (prev (ix2 r l))) (chunk_apply 3072 _ A v1 r l _ _ _ _ rfl rfl rfl rfl)

/-- Chunk 7: the running minimum with the minimum over lane groups 28 … 31. -/
theorem pay166_apply (v1 : FVec Ideal S8x4096 .f32) (A : FVec Ideal S256x8 .f32) (prev : FVec Ideal S256x128 .f32)
    (r : Fin 256) (l : Fin 128) :
    k0_pay166 v1 A prev (ix2 r l)
      = min (prev (ix2 r l))
      (min (min (lane A v1 r l ⟨28, by omega⟩) (lane A v1 r l ⟨29, by omega⟩))
        (min (lane A v1 r l ⟨30, by omega⟩) (lane A v1 r l ⟨31, by omega⟩))) := by
  unfold k0_pay166 k0_pay165
  exact congrArg (min (prev (ix2 r l))) (chunk_apply 3584 _ A v1 r l _ _ _ _ rfl rfl rfl rfl)

/-! ## The tree of minima over the 32 lane groups -/

/-- The running minimum over eight groups of four, each a tree of two minima of two, is the infimum over all 32. -/
theorem tree32_eq_inf (f : Fin 32 → EReal) :
    (min (min (min (min (min (min (min (min (min (f ⟨0, by omega⟩) (f ⟨1, by omega⟩)) (min (f ⟨2, by omega⟩) (f ⟨3, by omega⟩)))
      (min (min (f ⟨4, by omega⟩) (f ⟨5, by omega⟩)) (min (f ⟨6, by omega⟩) (f ⟨7, by omega⟩))))
      (min (min (f ⟨8, by omega⟩) (f ⟨9, by omega⟩)) (min (f ⟨10, by omega⟩) (f ⟨11, by omega⟩))))
      (min (min (f ⟨12, by omega⟩) (f ⟨13, by omega⟩)) (min (f ⟨14, by omega⟩) (f ⟨15, by omega⟩))))
      (min (min (f ⟨16, by omega⟩) (f ⟨17, by omega⟩)) (min (f ⟨18, by omega⟩) (f ⟨19, by omega⟩))))
      (min (min (f ⟨20, by omega⟩) (f ⟨21, by omega⟩)) (min (f ⟨22, by omega⟩) (f ⟨23, by omega⟩))))
      (min (min (f ⟨24, by omega⟩) (f ⟨25, by omega⟩)) (min (f ⟨26, by omega⟩) (f ⟨27, by omega⟩))))
      (min (min (f ⟨28, by omega⟩) (f ⟨29, by omega⟩)) (min (f ⟨30, by omega⟩) (f ⟨31, by omega⟩))))
      = Finset.univ.inf f := by
  apply le_antisymm
  · refine Finset.le_inf fun g _ => ?_
    match g with
    | ⟨0, _⟩ => simp only [min_le_iff, le_refl, true_or, or_true]
    | ⟨1, _⟩ => simp only [min_le_iff, le_refl, true_or, or_true]
    | ⟨2, _⟩ => simp only [min_le_iff, le_refl, true_or, or_true]
    | ⟨3, _⟩ => simp only [min_le_iff, le_refl, true_or, or_true]
    | ⟨4, _⟩ => simp only [min_le_iff, le_refl, true_or, or_true]
    | ⟨5, _⟩ => simp only [min_le_iff, le_refl, true_or, or_true]
    | ⟨6, _⟩ => simp only [min_le_iff, le_refl, true_or, or_true]
    | ⟨7, _⟩ => simp only [min_le_iff, le_refl, true_or, or_true]
    | ⟨8, _⟩ => simp only [min_le_iff, le_refl, true_or, or_true]
    | ⟨9, _⟩ => simp only [min_le_iff, le_refl, true_or, or_true]
    | ⟨10, _⟩ => simp only [min_le_iff, le_refl, true_or, or_true]
    | ⟨11, _⟩ => simp only [min_le_iff, le_refl, true_or, or_true]
    | ⟨12, _⟩ => simp only [min_le_iff, le_refl, true_or, or_true]
    | ⟨13, _⟩ => simp only [min_le_iff, le_refl, true_or, or_true]
    | ⟨14, _⟩ => simp only [min_le_iff, le_refl, true_or, or_true]
    | ⟨15, _⟩ => simp only [min_le_iff, le_refl, true_or, or_true]
    | ⟨16, _⟩ => simp only [min_le_iff, le_refl, true_or, or_true]
    | ⟨17, _⟩ => simp only [min_le_iff, le_refl, true_or, or_true]
    | ⟨18, _⟩ => simp only [min_le_iff, le_refl, true_or, or_true]
    | ⟨19, _⟩ => simp only [min_le_iff, le_refl, true_or, or_true]
    | ⟨20, _⟩ => simp only [min_le_iff, le_refl, true_or, or_true]
    | ⟨21, _⟩ => simp only [min_le_iff, le_refl, true_or, or_true]
    | ⟨22, _⟩ => simp only [min_le_iff, le_refl, true_or, or_true]
    | ⟨23, _⟩ => simp only [min_le_iff, le_refl, true_or, or_true]
    | ⟨24, _⟩ => simp only [min_le_iff, le_refl, true_or, or_true]
    | ⟨25, _⟩ => simp only [min_le_iff, le_refl, true_or, or_true]
    | ⟨26, _⟩ => simp only [min_le_iff, le_refl, true_or, or_true]
    | ⟨27, _⟩ => simp only [min_le_iff, le_refl, true_or, or_true]
    | ⟨28, _⟩ => simp only [min_le_iff, le_refl, true_or, or_true]
    | ⟨29, _⟩ => simp only [min_le_iff, le_refl, true_or, or_true]
    | ⟨30, _⟩ => simp only [min_le_iff, le_refl, true_or, or_true]
    | ⟨31, _⟩ => simp only [min_le_iff, le_refl, true_or, or_true]
    | ⟨n + 32, h⟩ => exact absurd h (by omega)
  · exact (le_min (le_min (le_min (le_min (le_min (le_min (le_min (le_min (le_min (Finset.inf_le (f := f) (Finset.mem_univ _)) (Finset.inf_le (f := f) (Finset.mem_univ _))) (le_min (Finset.inf_le (f := f) (Finset.mem_univ _)) (Finset.inf_le (f := f) (Finset.mem_univ _))))
      (le_min (le_min (Finset.inf_le (f := f) (Finset.mem_univ _)) (Finset.inf_le (f := f) (Finset.mem_univ _))) (le_min (Finset.inf_le (f := f) (Finset.mem_univ _)) (Finset.inf_le (f := f) (Finset.mem_univ _)))))
      (le_min (le_min (Finset.inf_le (f := f) (Finset.mem_univ _)) (Finset.inf_le (f := f) (Finset.mem_univ _))) (le_min (Finset.inf_le (f := f) (Finset.mem_univ _)) (Finset.inf_le (f := f) (Finset.mem_univ _)))))
      (le_min (le_min (Finset.inf_le (f := f) (Finset.mem_univ _)) (Finset.inf_le (f := f) (Finset.mem_univ _))) (le_min (Finset.inf_le (f := f) (Finset.mem_univ _)) (Finset.inf_le (f := f) (Finset.mem_univ _)))))
      (le_min (le_min (Finset.inf_le (f := f) (Finset.mem_univ _)) (Finset.inf_le (f := f) (Finset.mem_univ _))) (le_min (Finset.inf_le (f := f) (Finset.mem_univ _)) (Finset.inf_le (f := f) (Finset.mem_univ _)))))
      (le_min (le_min (Finset.inf_le (f := f) (Finset.mem_univ _)) (Finset.inf_le (f := f) (Finset.mem_univ _))) (le_min (Finset.inf_le (f := f) (Finset.mem_univ _)) (Finset.inf_le (f := f) (Finset.mem_univ _)))))
      (le_min (le_min (Finset.inf_le (f := f) (Finset.mem_univ _)) (Finset.inf_le (f := f) (Finset.mem_univ _))) (le_min (Finset.inf_le (f := f) (Finset.mem_univ _)) (Finset.inf_le (f := f) (Finset.mem_univ _)))))
      (le_min (le_min (Finset.inf_le (f := f) (Finset.mem_univ _)) (Finset.inf_le (f := f) (Finset.mem_univ _))) (le_min (Finset.inf_le (f := f) (Finset.mem_univ _)) (Finset.inf_le (f := f) (Finset.mem_univ _)))))

/-! ## The chain of the eight chunks -/

/-- The running minimum after the eight chunks, as a function of the second operand block and the trip's rows. -/
def rowChain (v1 : FVec Ideal S8x4096 .f32) (v30 : Vec Ideal S1x256x8 .f32) : FVec Ideal S256x128 .f32 :=
  k0_pay3 (k0_pay166 v1 (k0_pay7 v30) (k0_pay145 v1 (k0_pay7 v30) (k0_pay110 v1 (k0_pay7 v30)
    (k0_pay89 v1 (k0_pay7 v30) (k0_pay82 v1 (k0_pay7 v30) (k0_pay65 v1 (k0_pay7 v30)
      (k0_pay34 v1 (k0_pay7 v30) (k0_pay9 v1 v30))))))))

/-- The running minimum after the eight chunks, at (r, l), is the infimum over the 32 lane groups. -/
theorem rowChain_apply (v1 : FVec Ideal S8x4096 .f32) (v30 : Vec Ideal S1x256x8 .f32) (r : Fin 256) (l : Fin 128) :
    rowChain v1 v30 (ix2 r l) = Finset.univ.inf (lane (k0_pay7 v30) v1 r l) := by
  unfold rowChain k0_pay3
  refine (shapeCast_apply _ Facts₀.shapeCasts_S256x128_S256x128 (ix2 r l) (ix2 r l) rfl).trans ?_
  rw [pay166_apply, pay145_apply, pay110_apply, pay89_apply, pay82_apply, pay65_apply, pay34_apply, pay9_apply]
  exact tree32_eq_inf (lane (k0_pay7 v30) v1 r l)

/-! ## The trip's stored rows -/

/-- The rows of the first operand block a trip loads: 256 rows from row 256 * k. -/
def rows (arg1 : Memref sig .tc .vmem S1x4096x8 .f32) (X_arg1 : BufTy.Contents (Elt Ideal) arg1.view.ty)
    (k : Fin k0_t1_loop.trips) : Vec Ideal S1x256x8 .f32 :=
  View.readAt (Elt Ideal) arg1.view (Rect.unit (s := S1x4096x8) (k0_off1 k) S1x256x8.size (Facts₀.k0_off1_inb k)).toLoadRect X_arg1

/-- The block of rows a trip stores. -/
def rowPart (arg1 : Memref sig .tc .vmem S1x4096x8 .f32) (v0 : Vec Ideal S1x8x4096 .f32) (X_arg1 : BufTy.Contents (Elt Ideal) arg1.view.ty) (k : Fin k0_t1_loop.trips) : FVec Ideal S256x128 .f32 :=
  k0_pay3 (trip_k0_t1.sl.r_156 arg1 v0 X_arg1 k)

/-- The block a trip stores is the chain of the eight chunks over the loaded block and the trip's rows. -/
theorem rowPart_eq_chain (arg1 : Memref sig .tc .vmem S1x4096x8 .f32) (v0 : Vec Ideal S1x8x4096 .f32) (X_arg1 : BufTy.Contents (Elt Ideal) arg1.view.ty) (k : Fin k0_t1_loop.trips) :
    rowPart arg1 v0 X_arg1 k = rowChain (k0_pay1 v0) (rows arg1 X_arg1 k) := rfl

/-- The block a trip stores, at (r, l): the minimum over the 32 lane groups g of the product of row r of the trip's
    rows with column g * 128 + l of the second operand block. -/
theorem rowPart_apply (arg1 : Memref sig .tc .vmem S1x4096x8 .f32) (v0 : Vec Ideal S1x8x4096 .f32) (X_arg1 : BufTy.Contents (Elt Ideal) arg1.view.ty) (k : Fin k0_t1_loop.trips) (r : Fin 256) (l : Fin 128) :
    rowPart arg1 v0 X_arg1 k (ix2 r l)
      = Finset.univ.inf fun g : Fin 32 => ∑ d : Fin 8, rows arg1 X_arg1 k (ix3 (0 : Fin 1) r d)
          * v0 (ix3 (0 : Fin 1) d (⟨g.val * 128 + l.val, by have := g.isLt; have := l.isLt; omega⟩ : Fin 4096)) := by
  rw [rowPart_eq_chain, rowChain_apply]
  congr 1
  funext g
  unfold lane dotCol
  refine Finset.sum_congr rfl fun d _ => ?_
  unfold k0_pay7 k0_pay1
  rw [shapeCast_1ab_ab_apply, shapeCast_1ab_ab_apply]

/-- The pieces a trip writes: the one block of rows, at rows 256 * k …. -/
theorem tripRows_eq (𝒱 : Variants) (c : Dev nD) (bd : Option 𝒱.V) (i : grid0.Coords)
    (arg1 : Memref sig .tc .vmem S1x4096x8 .f32) (harg1 : arg1.IsWhole)
    (arg2 : Memref sig .tc .vmem S1x8x4096 .f32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S4096x128 .f32) (harg5 : arg5.IsWhole)
    (v0 : Vec Ideal S1x8x4096 .f32) (X_arg1 : BufTy.Contents (Elt Ideal) arg1.view.ty) (k : Fin k0_t1_loop.trips)
    (acc : FVec Ideal S8x4096 .f32) :
    tripL_k0_t1 (F := Ideal) 𝒱 c bd i arg1 harg1 arg2 harg2 arg3 harg3 arg4 harg4 arg5 harg5 v0 X_arg1 k acc
      = [⟨Rect.unit (s := S4096x128) (k0_off2 k) S256x128.size (Facts₀.k0_off2_inb k), rowPart arg1 v0 X_arg1 k⟩] := by
  unfold tripL_k0_t1 trip_k0_t1
  rfl

end Cert.Chamfer.Trip

end
-- ==== Proof.TripCols.lean ====
/-
  One trip of the kernel's loop over blocks of 256 rows, read at an index of the carried [8, 4096] array. The trip
  multiplies its 256 rows [256, 8] with the second operand block [8, 4096] in 8 chunks of 512 columns; of each
  product [256, 512] it takes the elementwise minimum over the 32 groups of 8 consecutive rows, by a balanced tree
  of minima, which leaves an [8, 512] array; the 8 such arrays side by side are an [8, 4096] array, and the trip
  yields the elementwise minimum of the carried array with it. So at (s, m) the yield is the carried value against
  the minimum over r of the product's entry at row 8 r + s and column m.
-/
import proofs.«119373_g85555748536873_cont_9to1_m_146_14_alg».proof.Proof.Gen.KernelIdeal.Loops
import proofs.«119373_g85555748536873_cont_9to1_m_146_14_alg».proof.Proof.Algebra
import proofs.«119373_g85555748536873_cont_9to1_m_146_14_alg».proof.Proof.LibKernelReads
import proofs.«119373_g85555748536873_cont_9to1_m_146_14_alg».proof.Proof.TripRows
import Idealize.ShloMosaic.Lib.Pipeline.Value
import Idealize.ShloMosaic.Lib.ValueIdx

noncomputable section

open scoped BigOperators

open Idealize.ShloMosaic Idealize.ShloMosaic.ValueIdx Idealize.ShloMosaic.LayoutReads

namespace Cert.Chamfer.Trip

open Cert.KernelIdeal Cert.KernelIdeal.Gen Cert.KernelIdeal.Facts₀ Cert.KernelIdeal.Facts

variable [Cert.KernelIdeal.Facts]

namespace Cols

/-! ### A balanced tree of 32 minima is the infimum over its leaves -/

/-- The balanced binary tree of minima over 32 values, leaves in order. -/
def tree32 (f : Fin 32 → EReal) : EReal :=
  min (min (min (min (min (f ⟨0, by omega⟩) (f ⟨1, by omega⟩)) (min (f ⟨2, by omega⟩) (f ⟨3, by omega⟩))) (min (min (f ⟨4, by omega⟩) (f ⟨5, by omega⟩)) (min (f ⟨6, by omega⟩) (f ⟨7, by omega⟩)))) (min (min (min (f ⟨8, by omega⟩) (f ⟨9, by omega⟩)) (min (f ⟨10, by omega⟩) (f ⟨11, by omega⟩))) (min (min (f ⟨12, by omega⟩) (f ⟨13, by omega⟩)) (min (f ⟨14, by omega⟩) (f ⟨15, by omega⟩))))) (min (min (min (min (f ⟨16, by omega⟩) (f ⟨17, by omega⟩)) (min (f ⟨18, by omega⟩) (f ⟨19, by omega⟩))) (min (min (f ⟨20, by omega⟩) (f ⟨21, by omega⟩)) (min (f ⟨22, by omega⟩) (f ⟨23, by omega⟩)))) (min (min (min (f ⟨24, by omega⟩) (f ⟨25, by omega⟩)) (min (f ⟨26, by omega⟩) (f ⟨27, by omega⟩))) (min (min (f ⟨28, by omega⟩) (f ⟨29, by omega⟩)) (min (f ⟨30, by omega⟩) (f ⟨31, by omega⟩)))))

theorem tree32_eq_inf (f : Fin 32 → EReal) : tree32 f = Finset.univ.inf f := by
  apply le_antisymm
  · refine Finset.le_inf fun r _ => ?_
    obtain ⟨r, hr⟩ := r
    unfold tree32
    interval_cases r <;> simp only [min_le_iff, le_refl, true_or, or_true]
  · have h : ∀ r : Fin 32, Finset.univ.inf f ≤ f r := fun r => Finset.inf_le (Finset.mem_univ r)
    unfold tree32
    simp only [le_min_iff, h, and_self]

/-! ### Slices of the product and of the second operand at an index -/

theorem rows_bound {o : Nat} (h : S256x512.Slices ![o, 0] S8x512) (s : Fin 8) : o + s.val < 256 := by
  obtain ⟨_, h2⟩ := h
  have h8 : o + 8 ≤ 256 := h2 0
  omega

/-- Eight rows of a [256, 512] array from row `o`, read at `(s, j)`: the array at `(o + s, j)`. -/
theorem slice_rows_apply (p : FVec Ideal S256x512 .f32) (o : Nat) (h : S256x512.Slices ![o, 0] S8x512)
    (s : Fin 8) (j : Fin 512) :
    extractStridedSlice S8x512 ![o, 0] p h (ix2 s j) = p (ix2 ⟨o + s.val, rows_bound h s⟩ j) := by
  refine extractStridedSlice_apply _ p h (ix2 s j) (ix2 ⟨o + s.val, rows_bound h s⟩ j) fun a => ?_
  match a with
  | ⟨0, _⟩ => rfl
  | ⟨1, _⟩ => show j.val = 0 + j.val; omega

theorem cols_bound {o : Nat} (h : S8x4096.Slices ![0, o] S8x512) (j : Fin 512) : o + j.val < 4096 := by
  obtain ⟨_, h2⟩ := h
  have h8 : o + 512 ≤ 4096 := h2 1
  omega

/-- 512 columns of an [8, 4096] array from column `o`, read at `(d, j)`: the array at `(d, o + j)`. -/
theorem slice_cols_apply (v : FVec Ideal S8x4096 .f32) (o : Nat) (h : S8x4096.Slices ![0, o] S8x512)
    (d : Fin 8) (j : Fin 512) :
    extractStridedSlice S8x512 ![0, o] v h (ix2 d j) = v (ix2 d ⟨o + j.val, cols_bound h j⟩) := by
  refine extractStridedSlice_apply _ v h (ix2 d j) (ix2 d ⟨o + j.val, cols_bound h j⟩) fun a => ?_
  match a with
  | ⟨0, _⟩ => show d.val = 0 + d.val; omega
  | ⟨1, _⟩ => rfl

/-- The product of the 256 rows with 512 columns of the second operand from column `o`, into the zero
    accumulator, read at `(q, j)`. -/
theorem prod_apply (v1 : FVec Ideal S8x4096 .f32) (v31 : FVec Ideal S256x8 .f32) (o : Nat)
    (h : S8x4096.Slices ![0, o] S8x512) (q : Fin 256) (j : Fin 512) :
    matmul dot_S256x8_S8x512_S256x512_1_0_0_1_n_n none v31 (extractStridedSlice S8x512 ![0, o] v1 h)
        (constant (F := Ideal) S256x512 .f32 0x00000000#32) (ix2 q j)
      = ∑ d : Fin 8, v31 (ix2 q d) * v1 (ix2 d ⟨o + j.val, cols_bound h j⟩) := by
  refine (matmul_plain_zero_apply dot_S256x8_S8x512_S256x512_1_0_0_1_n_n rfl rfl rfl rfl rfl rfl none v31 _ q j).trans ?_
  exact Finset.sum_congr rfl fun d _ => congrArg _ (slice_cols_apply v1 o h d j)

/-- The second operand block flattened to [8, 4096], read at `(d, m)`. -/
theorem pay1_apply (v0 : Vec Ideal S1x8x4096 .f32) (d : Fin 8) (m : Fin 4096) :
    k0_pay1 (F := Ideal) v0 (ix2 d m) = v0 (ix3 0 d m) := by
  unfold k0_pay1
  refine shapeCast_apply v0 _ (ix2 d m) (ix3 0 d m) ?_
  rw [Shape.rowMajor_val_three, Shape.rowMajor_val_two]
  show (0 * 8 + d.val) * 4096 + m.val = d.val * 4096 + m.val
  omega

/-- The trip's 256 rows flattened to [256, 8], read at `(q, d)`. -/
theorem pay7_apply (v30 : Vec Ideal S1x256x8 .f32) (q : Fin 256) (d : Fin 8) :
    k0_pay7 (F := Ideal) v30 (ix2 q d) = v30 (ix3 0 q d) := by
  unfold k0_pay7
  refine shapeCast_apply v30 _ (ix2 q d) (ix3 0 q d) ?_
  rw [Shape.rowMajor_val_three, Shape.rowMajor_val_two]
  show (0 * 256 + q.val) * 8 + d.val = q.val * 8 + d.val
  omega

/-- Columns 0 … 511: the minimum over the 32 groups of 8 rows of the product, as the program forms it. -/
def cols0 (v1 : FVec Ideal S8x4096 .f32) (v30 : Vec Ideal S1x256x8 .f32) : FVec Ideal S8x512 .f32 :=
  k0_pay32 (F := Ideal) (k0_pay10 v1 v30) (k0_pay11 v1 v30) (k0_pay12 v1 v30) (k0_pay13 v1 v30) (k0_pay14 v1 v30) (k0_pay15 v1 v30) (k0_pay16 v1 v30) (k0_pay17 v1 v30) (k0_pay18 v1 v30) (k0_pay19 v1 v30) (k0_pay20 v1 v30) (k0_pay21 v1 v30) (k0_pay22 v1 v30) (k0_pay23 v1 v30) (k0_pay24 v1 v30) (k0_pay25 v1 v30) (k0_pay26 v1 v30) (k0_pay27 v1 v30) (k0_pay28 v1 v30) (k0_pay29 v1 v30) (k0_pay30 v1 v30) (k0_pay31 v1 v30)

theorem cols0_apply (v1 : FVec Ideal S8x4096 .f32) (v30 : Vec Ideal S1x256x8 .f32) (s : Fin 8) (j : Fin 512) :
    cols0 v1 v30 (ix2 s j)
      = Finset.univ.inf fun g : Fin 32 => ∑ d : Fin 8, k0_pay7 (F := Ideal) v30 (ix2 ⟨g.val * 8 + s.val, by omega⟩ d) * v1 (ix2 d ⟨0 + j.val, by omega⟩) := by
  unfold cols0
  simp only [k0_pay32, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, minimumf_apply, slice_rows_apply]
  refine (tree32_eq_inf fun g : Fin 32 => k0_pay8 (F := Ideal) v1 v30 (ix2 ⟨g.val * 8 + s.val, by omega⟩ j)).trans ?_
  refine Finset.inf_congr rfl fun g _ => ?_
  unfold k0_pay8
  exact prod_apply v1 _ 0 _ _ j

/-- Columns 512 … 1023: the minimum over the 32 groups of 8 rows of the product, as the program forms it. -/
def cols1 (v1 : FVec Ideal S8x4096 .f32) (v31 : FVec Ideal S256x8 .f32) : FVec Ideal S8x512 .f32 :=
  k0_pay63 (F := Ideal) (k0_pay33 v1 v31) (k0_pay35 v1 v31) (k0_pay36 v1 v31) (k0_pay37 v1 v31) (k0_pay38 v1 v31) (k0_pay39 v1 v31) (k0_pay40 v1 v31) (k0_pay41 v1 v31) (k0_pay42 v1 v31) (k0_pay43 v1 v31) (k0_pay44 v1 v31) (k0_pay45 v1 v31) (k0_pay46 v1 v31) (k0_pay47 v1 v31) (k0_pay48 v1 v31) (k0_pay49 v1 v31) (k0_pay50 v1 v31) (k0_pay51 v1 v31) (k0_pay52 v1 v31) (k0_pay53 v1 v31) (k0_pay54 v1 v31) (k0_pay55 v1 v31) (k0_pay56 v1 v31) (k0_pay57 v1 v31) (k0_pay58 v1 v31) (k0_pay59 v1 v31) (k0_pay60 v1 v31) (k0_pay61 v1 v31) (k0_pay62 v1 v31)

theorem cols1_apply (v1 : FVec Ideal S8x4096 .f32) (v31 : FVec Ideal S256x8 .f32) (s : Fin 8) (j : Fin 512) :
    cols1 v1 v31 (ix2 s j)
      = Finset.univ.inf fun g : Fin 32 => ∑ d : Fin 8, v31 (ix2 ⟨g.val * 8 + s.val, by omega⟩ d) * v1 (ix2 d ⟨512 + j.val, by omega⟩) := by
  unfold cols1
  simp only [k0_pay63, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, minimumf_apply, slice_rows_apply]
  refine (tree32_eq_inf fun g : Fin 32 => k0_pay33 (F := Ideal) v1 v31 (ix2 ⟨g.val * 8 + s.val, by omega⟩ j)).trans ?_
  refine Finset.inf_congr rfl fun g _ => ?_
  unfold k0_pay33
  exact prod_apply v1 _ 512 _ _ j

/-- Columns 1024 … 1535: the minimum over the 32 groups of 8 rows of the product, as the program forms it. -/
def cols2 (v1 : FVec Ideal S8x4096 .f32) (v31 : FVec Ideal S256x8 .f32) : FVec Ideal S8x512 .f32 :=
  k0_pay80 (F := Ideal) (k0_pay64 v1 v31) (k0_pay66 v1 v31) (k0_pay67 v1 v31) (k0_pay68 v1 v31) (k0_pay69 v1 v31) (k0_pay70 v1 v31) (k0_pay71 v1 v31) (k0_pay72 v1 v31) (k0_pay73 v1 v31) (k0_pay74 v1 v31) (k0_pay75 v1 v31) (k0_pay76 v1 v31) (k0_pay77 v1 v31) (k0_pay78 v1 v31) (k0_pay79 v1 v31)

theorem cols2_apply (v1 : FVec Ideal S8x4096 .f32) (v31 : FVec Ideal S256x8 .f32) (s : Fin 8) (j : Fin 512) :
    cols2 v1 v31 (ix2 s j)
      = Finset.univ.inf fun g : Fin 32 => ∑ d : Fin 8, v31 (ix2 ⟨g.val * 8 + s.val, by omega⟩ d) * v1 (ix2 d ⟨1024 + j.val, by omega⟩) := by
  unfold cols2
  simp only [k0_pay80, k0_pay66, k0_pay67, k0_pay68, k0_pay69, k0_pay70, k0_pay71, k0_pay72, k0_pay73, k0_pay74, k0_pay75, k0_pay76, k0_pay77, k0_pay78, k0_pay79, minimumf_apply, slice_rows_apply]
  refine (tree32_eq_inf fun g : Fin 32 => k0_pay64 (F := Ideal) v1 v31 (ix2 ⟨g.val * 8 + s.val, by omega⟩ j)).trans ?_
  refine Finset.inf_congr rfl fun g _ => ?_
  unfold k0_pay64
  exact prod_apply v1 _ 1024 _ _ j

/-- Columns 1536 … 2047: the minimum over the 32 groups of 8 rows of the product, as the program forms it. -/
def cols3 (v1 : FVec Ideal S8x4096 .f32) (v31 : FVec Ideal S256x8 .f32) : FVec Ideal S8x512 .f32 :=
  k0_pay87 (F := Ideal) (k0_pay83 (k0_pay81 v1 v31)) (k0_pay84 (k0_pay81 v1 v31)) (k0_pay85 (k0_pay81 v1 v31)) (k0_pay86 (k0_pay81 v1 v31))

theorem cols3_apply (v1 : FVec Ideal S8x4096 .f32) (v31 : FVec Ideal S256x8 .f32) (s : Fin 8) (j : Fin 512) :
    cols3 v1 v31 (ix2 s j)
      = Finset.univ.inf fun g : Fin 32 => ∑ d : Fin 8, v31 (ix2 ⟨g.val * 8 + s.val, by omega⟩ d) * v1 (ix2 d ⟨1536 + j.val, by omega⟩) := by
  unfold cols3
  simp only [k0_pay87, k0_pay83, k0_pay84, k0_pay85, k0_pay86, minimumf_apply, slice_rows_apply]
  refine (tree32_eq_inf fun g : Fin 32 => k0_pay81 (F := Ideal) v1 v31 (ix2 ⟨g.val * 8 + s.val, by omega⟩ j)).trans ?_
  refine Finset.inf_congr rfl fun g _ => ?_
  unfold k0_pay81
  exact prod_apply v1 _ 1536 _ _ j

/-- Columns 2048 … 2559: the minimum over the 32 groups of 8 rows of the product, as the program forms it. -/
def cols4 (v1 : FVec Ideal S8x4096 .f32) (v31 : FVec Ideal S256x8 .f32) : FVec Ideal S8x512 .f32 :=
  k0_pay108 (F := Ideal) (k0_pay90 v1 v31) (k0_pay91 v1 v31) (k0_pay92 v1 v31) (k0_pay93 v1 v31) (k0_pay94 v1 v31) (k0_pay95 v1 v31) (k0_pay96 v1 v31) (k0_pay97 v1 v31) (k0_pay98 v1 v31) (k0_pay99 v1 v31) (k0_pay100 v1 v31) (k0_pay101 v1 v31) (k0_pay102 v1 v31) (k0_pay103 v1 v31) (k0_pay104 v1 v31) (k0_pay105 v1 v31) (k0_pay106 v1 v31) (k0_pay107 v1 v31)

theorem cols4_apply (v1 : FVec Ideal S8x4096 .f32) (v31 : FVec Ideal S256x8 .f32) (s : Fin 8) (j : Fin 512) :
    cols4 v1 v31 (ix2 s j)
      = Finset.univ.inf fun g : Fin 32 => ∑ d : Fin 8, v31 (ix2 ⟨g.val * 8 + s.val, by omega⟩ d) * v1 (ix2 d ⟨2048 + j.val, by omega⟩) := by
  unfold cols4
  simp only [k0_pay108, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, minimumf_apply, slice_rows_apply]
  refine (tree32_eq_inf fun g : Fin 32 => k0_pay88 (F := Ideal) v1 v31 (ix2 ⟨g.val * 8 + s.val, by omega⟩ j)).trans ?_
  refine Finset.inf_congr rfl fun g _ => ?_
  unfold k0_pay88
  exact prod_apply v1 _ 2048 _ _ j

/-- Columns 2560 … 3071: the minimum over the 32 groups of 8 rows of the product, as the program forms it. -/
def cols5 (v1 : FVec Ideal S8x4096 .f32) (v31 : FVec Ideal S256x8 .f32) : FVec Ideal S8x512 .f32 :=
  k0_pay143 (F := Ideal) (k0_pay111 v1 v31) (k0_pay112 v1 v31) (k0_pay113 v1 v31) (k0_pay114 v1 v31) (k0_pay115 v1 v31) (k0_pay116 v1 v31) (k0_pay117 v1 v31) (k0_pay118 v1 v31) (k0_pay119 v1 v31) (k0_pay120 v1 v31) (k0_pay121 v1 v31) (k0_pay122 v1 v31) (k0_pay123 v1 v31) (k0_pay124 v1 v31) (k0_pay125 v1 v31) (k0_pay126 v1 v31) (k0_pay127 v1 v31) (k0_pay128 v1 v31) (k0_pay129 v1 v31) (k0_pay130 v1 v31) (k0_pay131 v1 v31) (k0_pay132 v1 v31) (k0_pay133 v1 v31) (k0_pay134 v1 v31) (k0_pay135 v1 v31) (k0_pay136 v1 v31) (k0_pay137 v1 v31) (k0_pay138 v1 v31) (k0_pay139 v1 v31) (k0_pay140 v1 v31) (k0_pay141 v1 v31) (k0_pay142 v1 v31)

theorem cols5_apply (v1 : FVec Ideal S8x4096 .f32) (v31 : FVec Ideal S256x8 .f32) (s : Fin 8) (j : Fin 512) :
    cols5 v1 v31 (ix2 s j)
      = Finset.univ.inf fun g : Fin 32 => ∑ d : Fin 8, v31 (ix2 ⟨g.val * 8 + s.val, by omega⟩ d) * v1 (ix2 d ⟨2560 + j.val, by omega⟩) := by
  unfold cols5
  simp only [k0_pay143, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, minimumf_apply, slice_rows_apply]
  refine (tree32_eq_inf fun g : Fin 32 => k0_pay109 (F := Ideal) v1 v31 (ix2 ⟨g.val * 8 + s.val, by omega⟩ j)).trans ?_
  refine Finset.inf_congr rfl fun g _ => ?_
  unfold k0_pay109
  exact prod_apply v1 _ 2560 _ _ j

/-- Columns 3072 … 3583: the minimum over the 32 groups of 8 rows of the product, as the program forms it. -/
def cols6 (v1 : FVec Ideal S8x4096 .f32) (v31 : FVec Ideal S256x8 .f32) : FVec Ideal S8x512 .f32 :=
  k0_pay164 (F := Ideal) (k0_pay144 v1 v31) (k0_pay146 v1 v31) (k0_pay147 v1 v31) (k0_pay148 v1 v31) (k0_pay149 v1 v31) (k0_pay150 v1 v31) (k0_pay151 v1 v31) (k0_pay152 v1 v31) (k0_pay153 v1 v31) (k0_pay154 v1 v31) (k0_pay155 v1 v31) (k0_pay156 v1 v31) (k0_pay157 v1 v31) (k0_pay158 v1 v31) (k0_pay159 v1 v31) (k0_pay160 v1 v31) (k0_pay161 v1 v31) (k0_pay162 v1 v31) (k0_pay163 v1 v31)

theorem cols6_apply (v1 : FVec Ideal S8x4096 .f32) (v31 : FVec Ideal S256x8 .f32) (s : Fin 8) (j : Fin 512) :
    cols6 v1 v31 (ix2 s j)
      = Finset.univ.inf fun g : Fin 32 => ∑ d : Fin 8, v31 (ix2 ⟨g.val * 8 + s.val, by omega⟩ d) * v1 (ix2 d ⟨3072 + j.val, by omega⟩) := by
  unfold cols6
  simp only [k0_pay164, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, minimumf_apply, slice_rows_apply]
  refine (tree32_eq_inf fun g : Fin 32 => k0_pay144 (F := Ideal) v1 v31 (ix2 ⟨g.val * 8 + s.val, by omega⟩ j)).trans ?_
  refine Finset.inf_congr rfl fun g _ => ?_
  unfold k0_pay144
  exact prod_apply v1 _ 3072 _ _ j

/-- Columns 3584 … 4095: the minimum over the 32 groups of 8 rows of the product, as the program forms it. -/
def cols7 (v1 : FVec Ideal S8x4096 .f32) (v31 : FVec Ideal S256x8 .f32) : FVec Ideal S8x512 .f32 :=
  k0_pay171 (F := Ideal) (k0_pay165 v1 v31) (k0_pay167 v1 v31) (k0_pay168 v1 v31) (k0_pay169 v1 v31) (k0_pay170 v1 v31)

theorem cols7_apply (v1 : FVec Ideal S8x4096 .f32) (v31 : FVec Ideal S256x8 .f32) (s : Fin 8) (j : Fin 512) :
    cols7 v1 v31 (ix2 s j)
      = Finset.univ.inf fun g : Fin 32 => ∑ d : Fin 8, v31 (ix2 ⟨g.val * 8 + s.val, by omega⟩ d) * v1 (ix2 d ⟨3584 + j.val, by omega⟩) := by
  unfold cols7
  simp only [k0_pay171, k0_pay167, k0_pay168, k0_pay169, k0_pay170, minimumf_apply, slice_rows_apply]
  refine (tree32_eq_inf fun g : Fin 32 => k0_pay165 (F := Ideal) v1 v31 (ix2 ⟨g.val * 8 + s.val, by omega⟩ j)).trans ?_
  refine Finset.inf_congr rfl fun g _ => ?_
  unfold k0_pay165
  exact prod_apply v1 _ 3584 _ _ j

/-! ### The concatenation of the eight chunks and the carried minimum -/

/-- A concatenation of [8, 512] pieces into [8, 4096] along the columns, read at `(s, m)`: piece `k`, whose
    span starts at `pre`, at `(s, e)` when `pre + e = m`. -/
theorem concat_cols_piece {α : Type} (xs : List ((s : Shape) × (s.Idx → α)))
    (h : Shape.Concatenates (xs.map (·.1)) S8x4096 1) (s : Fin 8) (m : Fin 4096)
    (k : Nat) (hk : k < xs.length) (x₁ : S8x512.Idx → α) (hxk : xs[k] = ⟨S8x512, x₁⟩) (pre : Nat)
    (hpre : (((xs.take k).map (·.1)).map fun t =>
      if h : t.rank = S8x4096.rank then t.size ((1 : Fin S8x4096.rank).cast h.symm) else 0).sum = pre)
    (e : Fin 512) (ha : pre + e.val = m.val) :
    concatenate S8x4096 1 xs h (ix2 s m) = x₁ (ix2 s e) :=
  concatenate_apply_piece 1 xs h (ix2 s m) k hk _ x₁ hxk rfl pre hpre (ix2 s e)
    (fun c hc => match c, hc with
      | ⟨0, _⟩, _ => rfl
      | ⟨1, _⟩, hc => absurd rfl hc) ha

/-- The trip's yield at `(s, m)`, `m` in chunk `c` at offset `j`: the carried value there against chunk `c`'s
    value at `(s, j)`. -/
theorem pay4_apply (acc : FVec Ideal S8x4096 .f32) (w : Fin 8 → FVec Ideal S8x512 .f32) (s : Fin 8) (m : Fin 4096)
    (c : Fin 8) (j : Fin 512) (hm : c.val * 512 + j.val = m.val) :
    k0_pay4 (F := Ideal) acc (w 0) (w 1) (w 2) (w 3) (w 4) (w 5) (w 6) (w 7) (ix2 s m)
      = min (acc (ix2 s m)) (w c (ix2 s j)) := by
  unfold k0_pay4
  refine congrArg (min (acc (ix2 s m))) ?_
  obtain ⟨c, hc⟩ := c
  interval_cases c
  · exact concat_cols_piece _ _ s m 0 (by simp) (w 0) rfl 0 rfl j (by simpa using hm)
  · exact concat_cols_piece _ _ s m 1 (by simp) (w 1) rfl 512 rfl j (by simpa using hm)
  · exact concat_cols_piece _ _ s m 2 (by simp) (w 2) rfl 1024 rfl j (by simpa using hm)
  · exact concat_cols_piece _ _ s m 3 (by simp) (w 3) rfl 1536 rfl j (by simpa using hm)
  · exact concat_cols_piece _ _ s m 4 (by simp) (w 4) rfl 2048 rfl j (by simpa using hm)
  · exact concat_cols_piece _ _ s m 5 (by simp) (w 5) rfl 2560 rfl j (by simpa using hm)
  · exact concat_cols_piece _ _ s m 6 (by simp) (w 6) rfl 3072 rfl j (by simpa using hm)
  · exact concat_cols_piece _ _ s m 7 (by simp) (w 7) rfl 3584 rfl j (by simpa using hm)

/-- From the flattened operands back to the loaded blocks, and from the chunk's column to `m`. -/
theorem chunk_final (v0 : Vec Ideal S1x8x4096 .f32) (v30 : Vec Ideal S1x256x8 .f32) (o : Nat) (s : Fin 8) (j : Fin 512)
    (m : Fin 4096) (ho : o + j.val < 4096) (hm : o + j.val = m.val) :
    (Finset.univ.inf fun g : Fin 32 => ∑ d : Fin 8,
        k0_pay7 (F := Ideal) v30 (ix2 ⟨g.val * 8 + s.val, by omega⟩ d) * k0_pay1 (F := Ideal) v0 (ix2 d ⟨o + j.val, ho⟩))
      = Finset.univ.inf fun g : Fin 32 => ∑ d : Fin 8, v30 (ix3 0 ⟨g.val * 8 + s.val, by omega⟩ d) * v0 (ix3 0 d m) := by
  have e : (⟨o + j.val, ho⟩ : Fin 4096) = m := Fin.ext hm
  rw [e]
  refine Finset.inf_congr rfl fun g _ => Finset.sum_congr rfl fun d _ => ?_
  rw [pay7_apply, pay1_apply]

end Cols

open Cols

/-! ### One trip's carried value -/

/-- The trip's result is the carried minimum against the concatenation of the eight chunks' values. -/
theorem tripR_eq (𝒱 : Variants) (c : Dev nD) (bd : Option 𝒱.V) (i : grid0.Coords)
    (arg1 : Memref sig .tc .vmem S1x4096x8 .f32) (harg1 : arg1.IsWhole)
    (arg2 : Memref sig .tc .vmem S1x8x4096 .f32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S4096x128 .f32) (harg5 : arg5.IsWhole)
    (v0 : Vec Ideal S1x8x4096 .f32) (X_arg1 : BufTy.Contents (Elt Ideal) arg1.view.ty) (k : Fin k0_t1_loop.trips)
    (acc : FVec Ideal S8x4096 .f32) :
    tripR_k0_t1 (F := Ideal) 𝒱 c bd i arg1 harg1 arg2 harg2 arg3 harg3 arg4 harg4 arg5 harg5 v0 X_arg1 k acc
      = k0_pay4 (F := Ideal) acc
          (cols0 (k0_pay1 v0) (rows arg1 X_arg1 k))
          (cols1 (k0_pay1 v0) (k0_pay7 (rows arg1 X_arg1 k)))
          (cols2 (k0_pay1 v0) (k0_pay7 (rows arg1 X_arg1 k)))
          (cols3 (k0_pay1 v0) (k0_pay7 (rows arg1 X_arg1 k)))
          (cols4 (k0_pay1 v0) (k0_pay7 (rows arg1 X_arg1 k)))
          (cols5 (k0_pay1 v0) (k0_pay7 (rows arg1 X_arg1 k)))
          (cols6 (k0_pay1 v0) (k0_pay7 (rows arg1 X_arg1 k)))
          (cols7 (k0_pay1 v0) (k0_pay7 (rows arg1 X_arg1 k))) := by
  unfold tripR_k0_t1 trip_k0_t1
  rfl

/-- **The carried value after one trip**, read at `(s, m)`: the carried value there against the minimum, over the 32
    groups of 8 rows, of the product of row `8 r + s` of the trip's 256 rows with column `m` of the second
    operand block. -/
theorem tripCols_apply (𝒱 : Variants) (c : Dev nD) (bd : Option 𝒱.V) (i : grid0.Coords)
    (arg1 : Memref sig .tc .vmem S1x4096x8 .f32) (harg1 : arg1.IsWhole)
    (arg2 : Memref sig .tc .vmem S1x8x4096 .f32) (harg2 : arg2.IsWhole)
    (arg3 : Memref sig .tc .vmem S1x1x128 .f32) (harg3 : arg3.IsWhole)
    (arg4 : Memref sig .tc .vmem S1x1x128 .f32) (harg4 : arg4.IsWhole)
    (arg5 : Memref sig .tc .vmem S4096x128 .f32) (harg5 : arg5.IsWhole)
    (v0 : Vec Ideal S1x8x4096 .f32) (X_arg1 : BufTy.Contents (Elt Ideal) arg1.view.ty) (k : Fin k0_t1_loop.trips)
    (acc : FVec Ideal S8x4096 .f32) (s : Fin 8) (m : Fin 4096) :
    tripR_k0_t1 (F := Ideal) 𝒱 c bd i arg1 harg1 arg2 harg2 arg3 harg3 arg4 harg4 arg5 harg5 v0 X_arg1 k acc (ix2 s m)
      = min (acc (ix2 s m))
          (Finset.univ.inf fun r : Fin 32 => ∑ d : Fin 8,
            rows arg1 X_arg1 k (ix3 0 ⟨r.val * 8 + s.val, by omega⟩ d) * v0 (ix3 0 d m)) := by
  obtain ⟨cc, j, hm⟩ : ∃ (cc : Fin 8) (j : Fin 512), cc.val * 512 + j.val = m.val :=
    ⟨⟨m.val / 512, by omega⟩, ⟨m.val % 512, by omega⟩, by show m.val / 512 * 512 + m.val % 512 = m.val; omega⟩
  rw [tripR_eq]
  refine (pay4_apply acc ![cols0 (k0_pay1 v0) (rows arg1 X_arg1 k), cols1 (k0_pay1 v0) (k0_pay7 (rows arg1 X_arg1 k)),
    cols2 (k0_pay1 v0) (k0_pay7 (rows arg1 X_arg1 k)), cols3 (k0_pay1 v0) (k0_pay7 (rows arg1 X_arg1 k)),
    cols4 (k0_pay1 v0) (k0_pay7 (rows arg1 X_arg1 k)), cols5 (k0_pay1 v0) (k0_pay7 (rows arg1 X_arg1 k)),
    cols6 (k0_pay1 v0) (k0_pay7 (rows arg1 X_arg1 k)), cols7 (k0_pay1 v0) (k0_pay7 (rows arg1 X_arg1 k))] s m cc j hm).trans
    (congrArg (min (acc (ix2 s m))) ?_)
  obtain ⟨cc, hcc⟩ := cc
  interval_cases cc
  · exact (cols0_apply _ _ s j).trans (chunk_final v0 _ 0 s j m (by omega) (by simpa using hm))
  · exact (cols1_apply _ _ s j).trans (chunk_final v0 _ 512 s j m (by omega) (by simpa using hm))
  · exact (cols2_apply _ _ s j).trans (chunk_final v0 _ 1024 s j m (by omega) (by simpa using hm))
  · exact (cols3_apply _ _ s j).trans (chunk_final v0 _ 1536 s j m (by omega) (by simpa using hm))
  · exact (cols4_apply _ _ s j).trans (chunk_final v0 _ 2048 s j m (by omega) (by simpa using hm))
  · exact (cols5_apply _ _ s j).trans (chunk_final v0 _ 2560 s j m (by omega) (by simpa using hm))
  · exact (cols6_apply _ _ s j).trans (chunk_final v0 _ 3072 s j m (by omega) (by simpa using hm))
  · exact (cols7_apply _ _ s j).trans (chunk_final v0 _ 3584 s j m (by omega) (by simpa using hm))

end Cert.Chamfer.Trip

end
-- ==== Proof.RefValue.lean ====
/-
  The reference program's result, read where a float is an extended real, is the chamfer distance of the
  specification. Stage by stage at one symbolic index: the two sums of squared coordinates are the squared norms,
  the batched contraction over the coordinates is the inner product, their combination with the literal 2 is the
  pairwise squared distance, clamped below at zero; the two minimum reductions from +inf are the infima over the
  other cloud's points; the two sums over batch and points, each divided by the point count, are the two means,
  and the result is their sum. From that equality follow the two facts about the reference's run: it terminates
  with its arguments unchanged, and its result buffer then holds the chamfer distance of those arguments.
-/
import proofs.«119373_g85555748536873_cont_9to1_m_146_14_alg».proof.Defs
import proofs.«119373_g85555748536873_cont_9to1_m_146_14_alg».proof.Proof.Gen.ReferenceIdeal.Read
import proofs.«119373_g85555748536873_cont_9to1_m_146_14_alg».proof.Proof.Gen.Pre_finite_inputs
import proofs.«119373_g85555748536873_cont_9to1_m_146_14_alg».proof.Proof.Spec

noncomputable section

open Idealize.ShloMosaic Idealize.ShloMosaic.ValueIdx Idealize.ShloMosaic.TcCoe Idealize.SL.Sem
open scoped BigOperators

namespace Cert.Chamfer.Ref

open Cert.ReferenceIdeal Cert.ReferenceIdeal.Gen Cert.ReferenceIdeal.Read

/-! ## The words the reference spells -/

/-- The word of `2.0` denotes the real 2. -/
theorem ofBits_two : Ideal.ofBits .f32 0x40000000#32 = (2 : EReal) := by
  simp [Ideal.ofBits, Ideal.ieee, -EReal.coe_mul]; norm_num; rfl

/-- The word of `+inf` denotes the top element. -/
theorem ofBits_top : Ideal.ofBits .f32 0x7F800000#32 = (⊤ : EReal) := by
  simp [Ideal.ofBits, Ideal.ieee]

/-- A fold of the minimum from `+inf` is the infimum over the finite set. -/
theorem fold_min_top {ι : Type} (s : Finset ι) (f : ι → EReal) :
    Finset.fold (FloatOps.minimumf (F := Ideal) (φ := .f32)) (Ideal.ofBits .f32 0x7F800000#32) f s = s.inf f := by
  classical
  rw [ofBits_top]
  induction s using Finset.induction_on with
  | empty => rw [Finset.fold_empty, Finset.inf_empty]
  | insert a s ha ih => rw [Finset.fold_insert ha, Finset.inf_insert, ih]; rfl

/-! ## The stages, each at one symbolic index -/

/-- The first cloud's squared norms: the sum of the three squared coordinates, from the zero word. -/
theorem v1_apply (x : FVec Ideal S8x4096x3 .f32) (b : Fin 8) (n : Fin 4096) :
    val_main_v1 (F := Ideal) x (ix2 b n) = sq x b n := by
  rw [val_main_v1_apply, val_main_cst_apply, Ideal.ofBits_def, Ideal.ofBits_zero_f32, zero_add]
  unfold sq
  refine Finset.sum_congr rfl fun k _ => ?_
  have e : idx_main_v1 (ix2 b n) k = ix3 b n k := funext fun a => by
    match a with | ⟨0, _⟩ => rfl | ⟨1, _⟩ => rfl | ⟨2, _⟩ => rfl
  rw [e, val_main_v0_apply, Ideal.mulf_def]

/-- The second cloud's squared norms. -/
theorem v3_apply (x : FVec Ideal S8x4096x3 .f32) (b : Fin 8) (m : Fin 4096) :
    val_main_v3 (F := Ideal) x (ix2 b m) = sq x b m := by
  rw [val_main_v3_apply, val_main_cst_0_apply, Ideal.ofBits_def, Ideal.ofBits_zero_f32, zero_add]
  unfold sq
  refine Finset.sum_congr rfl fun k _ => ?_
  have e : idx_main_v3 (ix2 b m) k = ix3 b m k := funext fun a => by
    match a with | ⟨0, _⟩ => rfl | ⟨1, _⟩ => rfl | ⟨2, _⟩ => rfl
  rw [e, val_main_v2_apply, Ideal.mulf_def]

/-- The batched contraction over the three coordinates is the inner product. -/
theorem v4_apply (x1 x2 : FVec Ideal S8x4096x3 .f32) (b : Fin 8) (n m : Fin 4096) :
    val_main_v4 (F := Ideal) x1 x2 (ix3 b n m) = inner x1 x2 b n m := by
  rw [val_main_v4_apply]
  unfold inner
  refine Finset.sum_congr rfl fun k _ => ?_
  have el : lidx_main_v4 (ix3 b n m) k = ix3 b n k := funext fun a => by
    match a with | ⟨0, _⟩ => rfl | ⟨1, _⟩ => rfl | ⟨2, _⟩ => rfl
  have er : ridx_main_v4 (ix3 b n m) k = ix3 b m k := funext fun a => by
    match a with | ⟨0, _⟩ => rfl | ⟨1, _⟩ => rfl | ⟨2, _⟩ => rfl
  rw [el, er]

/-- The clamped pairwise squared distance at (b, n, m). -/
theorem v14_apply (x1 x2 : FVec Ideal S8x4096x3 .f32) (b : Fin 8) (n m : Fin 4096) :
    val_main_v14 (F := Ideal) x1 x2 (ix3 b n m) = max (pair x1 x2 b n m) 0 := by
  have e5 : idx_main_v5 (idx_main_v7 (ix3 b n m)) = ix2 b n := funext fun a => by
    match a with | ⟨0, _⟩ => rfl | ⟨1, _⟩ => rfl
  have e6 : idx_main_v6 (idx_main_v8 (ix3 b n m)) = ix2 b m := funext fun a => by
    match a with | ⟨0, _⟩ => rfl | ⟨1, _⟩ => rfl
  rw [val_main_v14_apply, val_main_v12_apply, val_main_v9_apply, val_main_v11_apply, val_main_v7_apply,
    val_main_v8_apply, val_main_v5_apply, val_main_v6_apply, val_main_v10_apply, val_main_v13_apply,
    val_main_cst_1_apply, val_main_cst_2_apply, e5, e6, v1_apply, v3_apply, v4_apply]
  simp only [Ideal.maximumf_def, Ideal.subf_def, Ideal.addf_def, Ideal.mulf_def, Ideal.ofBits_def, ofBits_two,
    Ideal.ofBits_zero_f32]
  rfl

/-! ## The two nearest-distance reductions -/

/-- The index (b, n) of the reduced array with coordinate `k` put back on the last axis is (b, n, k). -/
theorem lift_d2 (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  match c with | ⟨0, _⟩ => rfl | ⟨1, _⟩ => rfl | ⟨2, _⟩ => rfl

/-- The index (b, m) of the reduced array with coordinate `k` put back on the middle axis is (b, k, m). -/
theorem lift_d1 (h : S8x4096x4096.Reduces [1] S8x4096) (b : Fin 8) (m : Fin 4096) (k : Fin (S8x4096x4096.size 1)) :
    h.lift (ix2 b m) k = ix3 b (⟨k.val, k.isLt⟩ : Fin 4096) m := by
  funext c; apply Fin.ext
  match c with | ⟨0, _⟩ => rfl | ⟨1, _⟩ => rfl | ⟨2, _⟩ => rfl

/-- The minimum along the second cloud's axis, from `+inf`: each first-cloud point's nearest distance. -/
theorem v15_apply (x1 x2 : FVec Ideal S8x4096x3 .f32) (b : Fin 8) (n : Fin 4096) :
    val_main_v15 (F := Ideal) x1 x2 (ix2 b n) = rowNear x1 x2 b n := by
  have h : S8x4096x4096.Reduces [2] S8x4096 := by decide
  unfold val_main_v15
  rw [Host.reduce_eq_fold_single FloatOps.minimumf _ _ reducesTo_S8x4096x4096_S8x4096_d2 h h_S_]
  have hf : (val_main_v14 (F := Ideal) x1 x2 ∘ h.lift (ix2 b n)) = fun m : Fin 4096 => max (pair x1 x2 b n m) 0 :=
    funext fun k => (congrArg (val_main_v14 (F := Ideal) x1 x2) (lift_d2 h b n k)).trans (v14_apply x1 x2 b n _)
  rw [hf, val_main_cst_3_apply, Ideal.ofBits_def]
  exact fold_min_top _ _

/-- The minimum along the first cloud's axis, from `+inf`: each second-cloud point's nearest distance. -/
theorem v16_apply (x1 x2 : FVec Ideal S8x4096x3 .f32) (b : Fin 8) (m : Fin 4096) :
    val_main_v16 (F := Ideal) x1 x2 (ix2 b m) = colNear x1 x2 b m := by
  have h : S8x4096x4096.Reduces [1] S8x4096 := by decide
  unfold val_main_v16
  rw [Host.reduce_eq_fold_single FloatOps.minimumf _ _ reducesTo_S8x4096x4096_S8x4096_d1 h h_S_]
  have hf : (val_main_v14 (F := Ideal) x1 x2 ∘ h.lift (ix2 b m)) = fun n : Fin 4096 => max (pair x1 x2 b n m) 0 :=
    funext fun k => (congrArg (val_main_v14 (F := Ideal) x1 x2) (lift_d1 h b m k)).trans (v14_apply x1 x2 b _ m)
  rw [hf, val_main_cst_4_apply, Ideal.ofBits_def]
  exact fold_min_top _ _

/-! ## The two means and their sum -/

/-- The sum of the first cloud's nearest distances over the batch and the points, from the zero word. -/
theorem v17_apply (x1 x2 : FVec Ideal S8x4096x3 .f32) (i : S_.Idx) :
    val_main_v17 (F := Ideal) x1 x2 i = ∑ b : Fin 8, ∑ n : Fin 4096, rowNear x1 x2 b n := by
  rw [val_main_v17_apply, val_main_cst_5_apply, Ideal.ofBits_def, Ideal.ofBits_zero_f32, zero_add, sum_idx2]
  exact Finset.sum_congr rfl fun b _ => Finset.sum_congr rfl fun n _ => v15_apply x1 x2 b n

/-- The sum of the second cloud's nearest distances over the batch and the points, from the zero word. -/
theorem v19_apply (x1 x2 : FVec Ideal S8x4096x3 .f32) (i : S_.Idx) :
    val_main_v19 (F := Ideal) x1 x2 i = ∑ b : Fin 8, ∑ m : Fin 4096, colNear x1 x2 b m := by
  rw [val_main_v19_apply, val_main_cst_7_apply, Ideal.ofBits_def, Ideal.ofBits_zero_f32, zero_add, sum_idx2]
  exact Finset.sum_congr rfl fun b _ => Finset.sum_congr rfl fun m _ => v16_apply x1 x2 b m

/-- The reference's result is the chamfer distance of its two arguments. -/
theorem ref_eq (x1 x2 : FVec Ideal Cert.ReferenceIdeal.S8x4096x3 .f32) :
    Cert.ReferenceIdeal.Read.val_main_v21 (F := Ideal) x1 x2 = fun _ => Cert.Chamfer.chamfer x1 x2 := by
  funext i
  rw [val_main_v21_apply, val_main_v18_apply, val_main_v20_apply, v17_apply, v19_apply, val_main_cst_6_apply,
    val_main_cst_8_apply, Ideal.addf_def, Ideal.hostDivf_def, Ideal.hostDivf_def, Ideal.ofBits_def]
  rfl

/-! ## The reference's run, stated over the specification -/

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference runs, ends with the chamfer distance of its arguments in its result, and leaves the arguments
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v21)
          = (fun _ => Cert.Chamfer.chamfer (m' ((c.tc : Thread Cert.ReferenceIdeal.nD Cert.ReferenceIdeal.τ).loc Cert.ReferenceIdeal.main_arg0))
                                           (m' ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((Cert.ReferenceIdeal.Read.val_main_v21_eq (F := Ideal) _ _).trans (ref_eq _ _)), (h c).2⟩)
    (Cert.ReferenceIdeal.Value.run (F := Ideal) m' ρ')

end Cert.Chamfer.Ref

end
-- ==== Proof.AfterLoop.lean ====
/-
  What the kernel's body computes after its loop, and the loop's iteration, read where a float is an extended
  real. The two result payloads: a minimum reduction along one axis from +inf is the infimum over that axis, the
  maximum with the zero word is the clamp at zero, the sum along the one remaining row from the zero word is the
  sum over the 4096 entries, and the extract, splat and shape casts that follow read that one number everywhere.
  The loop's running minimum from +inf is, after N trips, the infimum of the N values taken; and the nested infima
  over tile, sublane group and sublane (for the rows), or over lane group and lane (for the columns), are the
  infimum over the 4096 points, because every point has exactly one such decomposition.
-/
import proofs.«119373_g85555748536873_cont_9to1_m_146_14_alg».proof.Proof.Gen.KernelIdeal.Skeleton
import proofs.«119373_g85555748536873_cont_9to1_m_146_14_alg».proof.Proof.Algebra
import proofs.«119373_g85555748536873_cont_9to1_m_146_14_alg».proof.Proof.RefValue
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.Chamfer.Trip

open Cert.KernelIdeal Cert.KernelIdeal.Gen

/-! ## The kernel's operations read at an index -/

/-- A minimum reduction along one axis from `+inf`, read where a float is an extended real: the infimum over that
    axis's coordinates (the reduced index with the coordinate put back). -/
theorem multiReduction_min_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction (F := Ideal) .minimumf [a] t src 0x7F800000#32 h hφ hacc j
      = Finset.univ.inf fun k : Fin (s.size a) => src (h.lift j k) := by
  rw [multiReduction_minimumf_eq_fold, h.fold_filter_drop_single, Ideal.ofBits_def]
  exact Cert.Chamfer.Ref.fold_min_top _ _

/-- The row index `n` of the reduced vector with lane `k` put back on axis 1 is (n, k). -/
theorem lift_lane (h : S4096x128.Reduces [1] S4096) (n : Fin 4096) (k : Fin (S4096x128.size 1)) :
    h.lift (ix1 n) k = ix2 n (⟨k.val, k.isLt⟩ : Fin 128) := by
  funext c; apply Fin.ext
  match c with | ⟨0, _⟩ => rfl | ⟨1, _⟩ => rfl

/-- The column index `m` of the reduced vector with sublane `k` put back on axis 0 is (k, m). -/
theorem lift_sublane (h : S8x4096.Reduces [0] S4096) (m : Fin 4096) (k : Fin (S8x4096.size 0)) :
    h.lift (ix1 m) k = ix2 (⟨k.val, k.isLt⟩ : Fin 8) m := by
  funext c; apply Fin.ext
  match c with | ⟨0, _⟩ => rfl | ⟨1, _⟩ => rfl

/-- The one index of the length-1 vector with coordinate `k` put back on axis 1 is (0, k). -/
theorem lift_total (h : S1x4096.Reduces [1] S1) (k : Fin (S1x4096.size 1)) :
    h.lift (ix1 (0 : Fin 1)) k = ix2 (0 : Fin 1) (⟨k.val, k.isLt⟩ : Fin 4096) := by
  funext c; apply Fin.ext
  match c with | ⟨0, _⟩ => rfl | ⟨1, _⟩ => rfl

/-- A vector of 4096 entries viewed as one row and summed along that row, from the zero word, is the sum of its
    entries. -/
theorem sum_row (v : FVec Ideal S4096 .f32) (hc : S4096.ShapeCasts S1x4096) (hr : S1x4096.Reduces [1] S1)
    (hφ : FKind.Formats .f32) (hacc : (0x00000000#32 : BitVec 32) = FKind.add.neutral .f32 hφ) :
    multiReduction (F := Ideal) .add [1] S1 (shapeCast S1x4096 v hc) 0x00000000#32 hr hφ hacc (ix1 (0 : Fin 1))
      = ∑ n : Fin 4096, v (ix1 n) := by
  refine (Ideal.multiReduction_add_single _ _ hr hφ hacc _).trans ?_
  refine Finset.sum_congr rfl fun k _ => ?_
  rw [lift_total hr k]
  exact shapeCast_a_1a_apply v hc 0 _

/-- A length-1 vector viewed as a 1 × 1 matrix, its entry extracted, splat over 128 lanes and viewed as
    1 × 1 × 128, reads that entry everywhere. -/
theorem splat_apply (w : FVec Ideal S1 .f32) (h1 : S1.ShapeCasts S1x1) (h2 : ∀ a, (![0, 0] : Fin 2 → ℕ) a < S1x1.size a)
    (h3 : S1x128.ShapeCasts S1x1x128) (j : S1x1x128.Idx) :
    shapeCast S1x1x128 (broadcast S1x128 (extractAt ![0, 0] (shapeCast S1x1 w h1) h2)) h3 j = w (ix1 (0 : Fin 1)) := by
  show shapeCast S1x1 w h1 (fun a => ⟨(![0, 0] : Fin 2 → ℕ) a, h2 a⟩) = _
  have e : (fun a => ⟨(![0, 0] : Fin 2 → ℕ) a, h2 a⟩ : S1x1.Idx) = ix2 (0 : Fin 1) (0 : Fin 1) := funext fun a => by
    match a with | ⟨0, _⟩ => rfl | ⟨1, _⟩ => rfl
  rw [e]
  exact shapeCast_a_1a_apply w h1 0 0

/-! ## The two result payloads -/

/-- The first result: over the 4096 rows of the stored row-minimum array, the sum of each row's minimum over its 128 lanes,
    clamped below at zero. -/
theorem pay5_apply (v5 : Vec Ideal S4096x128 .f32) (j : S1x1x128.Idx) :
    k0_pay5 (F := Ideal) v5 j = ∑ n : Fin 4096, max (Finset.univ.inf fun l : Fin 128 => v5 (ix2 n l)) 0 := by
  unfold k0_pay5
  refine (splat_apply _ _ _ _ j).trans ?_
  refine (sum_row _ _ _ _ _).trans ?_
  refine Finset.sum_congr rfl fun n _ => ?_
  show max (multiReduction (F := Ideal) .minimumf [1] S4096 v5 0x7F800000#32 reduces_S4096x128_S4096 (.inl rfl) rfl (ix1 n))
      (Ideal.ofBits .f32 0x00000000#32) = _
  refine congrArg₂ max ((multiReduction_min_single v5 _ _ _ (ix1 n)).trans ?_) Ideal.ofBits_zero_f32
  exact Finset.inf_congr rfl fun k _ => congrArg v5 (lift_lane _ n k)

/-- The second result: over the 4096 columns of the carried array, the sum of each column's minimum over its 8
    sublanes, clamped below at zero. -/
theorem pay6_apply (v4 : FVec Ideal S8x4096 .f32) (j : S1x1x128.Idx) :
    k0_pay6 (F := Ideal) v4 j = ∑ m : Fin 4096, max (Finset.univ.inf fun s : Fin 8 => v4 (ix2 s m)) 0 := by
  unfold k0_pay6
  refine (splat_apply _ _ _ _ j).trans ?_
  refine (sum_row _ _ _ _ _).trans ?_
  refine Finset.sum_congr rfl fun m _ => ?_
  show max (multiReduction (F := Ideal) .minimumf [0] S4096 v4 0x7F800000#32 reduces_S8x4096_S4096 (.inl rfl) rfl (ix1 m))
      (Ideal.ofBits .f32 0x00000000#32) = _
  refine congrArg₂ max ((multiReduction_min_single v4 _ _ _ (ix1 m)).trans ?_) Ideal.ofBits_zero_f32
  exact Finset.inf_congr rfl fun k _ => congrArg v4 (lift_sublane _ m k)

/-! ## The loop's initial value and the second operand's view -/

/-- The array the loop starts from is `+inf` everywhere. -/
theorem pay2_eq : k0_pay2 (F := Ideal) = fun _ => (⊤ : EReal) := by
  funext i
  show Ideal.ofBits .f32 0x7F800000#32 = _
  exact Cert.Chamfer.Ref.ofBits_top

/-- The second operand's block viewed without its leading unit axis. -/
theorem pay1_apply (v0 : Vec Ideal S1x8x4096 .f32) (d : Fin 8) (m : Fin 4096) :
    k0_pay1 (F := Ideal) v0 (ix2 d m) = v0 (ix3 (0 : Fin 1) d m) := by
  unfold k0_pay1
  exact shapeCast_1ab_ab_apply v0 _ d m

/-! ## The iteration of a running minimum -/

/-- A sequence that starts at the top element and takes, at each step, the minimum with a new value has, after
    `N` steps, the infimum of the `N` values. -/
theorem iter_min {ι : Type*} (g a : ℕ → ι → EReal) (N : ℕ) (h0 : a 0 = fun _ => ⊤)
    (hs : ∀ k < N, a (k + 1) = fun i => min (a k i) (g k i)) (i : ι) :
    a N i = (Finset.range N).inf fun k => g k i := by
  induction N with
  | zero => rw [h0, Finset.range_zero, Finset.inf_empty]
  | succ n ih =>
    have e : a (n + 1) i = min (a n i) (g n i) := congrFun (hs n (Nat.lt_succ_self n)) i
    rw [e, ih (fun k hk => hs k (Nat.lt_succ_of_lt hk)), Finset.range_add_one, Finset.inf_insert]
    exact min_comm _ _

/-- An infimum over the first `N` naturals is the infimum over `Fin N`. -/
theorem inf_range_eq_inf_fin (N : ℕ) (G : ℕ → EReal) :
    (Finset.range N).inf G = Finset.univ.inf fun k : Fin N => G k.val := by
  apply le_antisymm
  · exact Finset.le_inf fun k _ => Finset.inf_le (Finset.mem_range.2 k.isLt)
  · exact Finset.le_inf fun k hk =>
      Finset.inf_le (f := fun k : Fin N => G k.val) (Finset.mem_univ (⟨k, Finset.mem_range.1 hk⟩ : Fin N))

/-! ## Re-indexing the 4096 points -/

/-- Every row below 4096 is uniquely tile · 256 + sublane group · 8 + sublane: the nested infimum over the three
    is the infimum over the rows. -/
theorem inf_rows_tiles (f : Fin 4096 → EReal) :
    (Finset.univ.inf fun s : Fin 8 => Finset.univ.inf fun k : Fin 16 => Finset.univ.inf fun r : Fin 32 =>
        f ⟨k.val * 256 + r.val * 8 + s.val, by omega⟩) = Finset.univ.inf f := by
  apply le_antisymm
  · refine Finset.le_inf fun n _ => ?_
    refine (Finset.inf_le (Finset.mem_univ (⟨n.val % 8, by omega⟩ : Fin 8))).trans ?_
    refine (Finset.inf_le (Finset.mem_univ (⟨n.val / 256, by omega⟩ : Fin 16))).trans ?_
    refine (Finset.inf_le (Finset.mem_univ (⟨n.val % 256 / 8, by omega⟩ : Fin 32))).trans ?_
    exact le_of_eq (congrArg f (Fin.ext (by simp only; omega)))
  · exact Finset.le_inf fun s _ => Finset.le_inf fun k _ => Finset.le_inf fun r _ =>
      Finset.inf_le (Finset.mem_univ _)

/-- The same with the tiles counted by the first 16 naturals, as a loop counts them. -/
theorem inf_rows_tiles_range (F : ℕ → EReal) :
    (Finset.univ.inf fun s : Fin 8 => (Finset.range 16).inf fun k => Finset.univ.inf fun r : Fin 32 =>
        F (k * 256 + r.val * 8 + s.val)) = Finset.univ.inf fun n : Fin 4096 => F n.val := by
  have e : ∀ s : Fin 8, ((Finset.range 16).inf fun k => Finset.univ.inf fun r : Fin 32 => F (k * 256 + r.val * 8 + s.val))
      = Finset.univ.inf fun k : Fin 16 => Finset.univ.inf fun r : Fin 32 => F (k.val * 256 + r.val * 8 + s.val) :=
    fun s => inf_range_eq_inf_fin 16 (fun k => Finset.univ.inf fun r : Fin 32 => F (k * 256 + r.val * 8 + s.val))
  simp only [e]
  exact inf_rows_tiles (fun n : Fin 4096 => F n.val)

/-- Every column below 4096 is uniquely lane group · 128 + lane. -/
theorem inf_lanes (f : Fin 4096 → EReal) :
    (Finset.univ.inf fun l : Fin 128 => Finset.univ.inf fun g : Fin 32 => f ⟨g.val * 128 + l.val, by omega⟩)
      = Finset.univ.inf f := by
  apply le_antisymm
  · refine Finset.le_inf fun m _ => ?_
    refine (Finset.inf_le (Finset.mem_univ (⟨m.val % 128, by omega⟩ : Fin 128))).trans ?_
    refine (Finset.inf_le (Finset.mem_univ (⟨m.val / 128, by omega⟩ : Fin 32))).trans ?_
    exact le_of_eq (congrArg f (Fin.ext (by simp only; omega)))
  · exact Finset.le_inf fun l _ => Finset.le_inf fun g _ => Finset.inf_le (Finset.mem_univ _)

/-- Every column below 4096 is uniquely chunk · 512 + lane group · 128 + lane. -/
theorem inf_lanes_chunks (f : Fin 4096 → EReal) :
    (Finset.univ.inf fun l : Fin 128 => Finset.univ.inf fun c : Fin 8 => Finset.univ.inf fun g : Fin 4 =>
        f ⟨c.val * 512 + g.val * 128 + l.val, by omega⟩) = Finset.univ.inf f := by
  apply le_antisymm
  · refine Finset.le_inf fun m _ => ?_
    refine (Finset.inf_le (Finset.mem_univ (⟨m.val % 128, by omega⟩ : Fin 128))).trans ?_
    refine (Finset.inf_le (Finset.mem_univ (⟨m.val / 512, by omega⟩ : Fin 8))).trans ?_
    refine (Finset.inf_le (Finset.mem_univ (⟨m.val % 512 / 128, by omega⟩ : Fin 4))).trans ?_
    exact le_of_eq (congrArg f (Fin.ext (by simp only; omega)))
  · exact Finset.le_inf fun l _ => Finset.le_inf fun c _ => Finset.le_inf fun g _ =>
      Finset.inf_le (Finset.mem_univ _)

end Cert.Chamfer.Trip

end
-- ==== Proof.KernelValue.lean ====
/-
  The idealized kernel's result is the chamfer distance. Over the extended reals the matrix unit's product of row
  `n` of the first cloud's augmented coordinates with column `m` of the second cloud's is, for finite inputs, the
  pairwise squared distance `‖p‖² + ‖q‖² − 2⟨p, q⟩`; the loop's 16 trips of 256 rows, 8 chunks of 512 columns and
  the lane and sublane groups inside a chunk only re-bracket two minima of that matrix — along the columns for each
  row (through the scratch) and along the rows for each column (through the carried value) —; clamping at zero
  commutes with a minimum; so each grid point writes the batch entry's two sums of nearest distances, the result
  arrays hold them entry by entry, and the host operations after the region average them.
-/
import proofs.«119373_g85555748536873_cont_9to1_m_146_14_alg».proof.Proof.BodyIdeal
import proofs.«119373_g85555748536873_cont_9to1_m_146_14_alg».proof.Proof.HostPrefix
import proofs.«119373_g85555748536873_cont_9to1_m_146_14_alg».proof.Proof.HostTail
import proofs.«119373_g85555748536873_cont_9to1_m_146_14_alg».proof.Proof.Algebra
import proofs.«119373_g85555748536873_cont_9to1_m_146_14_alg».proof.Proof.TripRows
import proofs.«119373_g85555748536873_cont_9to1_m_146_14_alg».proof.Proof.TripCols
import proofs.«119373_g85555748536873_cont_9to1_m_146_14_alg».proof.Proof.AfterLoop
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat)
open Cert.Chamfer

open Cert.Chamfer.Trip

section EntryArrays
variable (m : (ℓ : Loc nD τ sig) → Buf (Elt Ideal) ℓ)
theorem entry_left (c : Dev nD) :
    (entry m c main_v16 : S8x4096x8.Idx → EReal) = Prefix.augLeft (m ((c : Thread nD τ).loc main_arg0)) := by
  show StableHlo.after hostOps0 (fun b => m (c, b)) (Proc.devRef .tc main_v16) = _
  open StableHlo in after_results
  rfl

theorem entry_right (c : Dev nD) :
    (entry m c main_v20 : S8x8x4096.Idx → EReal) = Prefix.augRightT (m ((c : Thread nD τ).loc main_arg1)) := by
  show StableHlo.after hostOps0 (fun b => m (c, b)) (Proc.devRef .tc main_v20) = _
  open StableHlo in after_results
  rfl
end EntryArrays

section Reads
variable (arg1 : Memref sig .tc .vmem S1x4096x8 .f32) (harg1 : arg1.IsWhole) (arg2 : Memref sig .tc .vmem S1x8x4096 .f32) (harg2 : arg2.IsWhole)
  (x0 : Vec Ideal S1x4096x8 .f32) (x1 : Vec Ideal S1x8x4096 .f32)

theorem loop_trips : k0_t1_loop.trips = 16 := by decide
theorem scf_trips : Scf.trips k0_t1_loop.lb k0_t1_loop.ub k0_t1_loop.st = 16 := by decide

theorem rows_read (k : Fin k0_t1_loop.trips) (q : Fin 256) (d : Fin 8) :
    View.readAt (Elt Ideal) arg1.view (Rect.unit (s := S1x4096x8) (k0_off1 k) S1x256x8.size (Gen.k0_off1_inb k)).toLoadRect (harg1.unread x0) (ix3 0 q d)
      = x0 (ix3 0 (⟨256 * k.val + q.val, by have := k.isLt; have := loop_trips; have := q.isLt; omega⟩ : Fin 4096) d) := by
  rw [View.readAt_eq_ld, harg1.read_unread]
  show x0 _ = x0 _
  congr 1
  funext a
  refine Fin.ext ?_
  have h := k0_off1_eq k
  match a with
  | ⟨0, _⟩ => show (k0_off1 k) 0 + 1 * 0 = 0; rw [h]; rfl
  | ⟨1, _⟩ => show (k0_off1 k) 1 + 1 * q.val = 256 * k.val + q.val; rw [h]; simp
  | ⟨2, _⟩ => show (k0_off1 k) 2 + 1 * d.val = d.val; rw [h]; simp

theorem cols_read : View.readAt (Elt Ideal) arg2.view rCols.toLoadRect (harg2.unread x1) = x1 := by
  rw [View.readAt_eq_ld, harg2.read_unread]
  exact View.ld_unit_zero (funext fun a => by fin_cases a <;> rfl) _ _
end Reads

section LoopValue
variable (c : Dev nD) (i : grid0.Coords) (arg1 : Memref sig .tc .vmem S1x4096x8 .f32) (harg1 : arg1.IsWhole) (arg2 : Memref sig .tc .vmem S1x8x4096 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S4096x128 .f32) (harg5 : arg5.IsWhole)
  (x0 : Vec Ideal S1x4096x8 .f32) (x1 : Vec Ideal S1x8x4096 .f32)

/-- The product of row `n` of the first block with column `mm` of the second, rows past the block reading `⊤`. -/
def dotN (mm : Fin 4096) (n : ℕ) : EReal :=
  if h : n < 4096 then ∑ d : Fin 8, x0 (ix3 0 (⟨n, h⟩ : Fin 4096) d) * x1 (ix3 0 d mm) else ⊤

/-- The state before trip `K`, with the whole-block load of the columns already read as the block. -/
abbrev stAt (K : ℕ) : (FVec Ideal S8x4096 .f32) × List (View.Piece (Elt Ideal) S4096x128 .f32) :=
  st_k0_t1 Variants.none c none i arg1 harg1 arg2 harg2 arg3 harg3 arg4 harg4 arg5 harg5
    (View.readAt (Elt Ideal) arg2.view rCols.toLoadRect (harg2.unread x1)) (harg1.unread x0) k0_pay2 K

theorem carried_at (K : ℕ) (hK : K ≤ 16) (s : Fin 8) (mm : Fin 4096) :
    (stAt c i arg1 harg1 arg2 harg2 arg3 harg3 arg4 harg4 arg5 harg5 x0 x1 K).1 (ix2 s mm)
      = (Finset.range K).inf fun k => Finset.univ.inf fun r : Fin 32 => dotN x0 x1 mm (k * 256 + r.val * 8 + s.val) := by
  induction K with
  | zero =>
    show k0_pay2 (F := Ideal) (ix2 s mm) = _
    rw [pay2_eq]; simp
  | succ K ih =>
    have hlt : K < k0_t1_loop.trips := by rw [loop_trips]; omega
    have e := st_k0_t1_succ (F := Ideal) Variants.none c none i arg1 harg1 arg2 harg2 arg3 harg3 arg4 harg4 arg5 harg5
      (View.readAt (Elt Ideal) arg2.view rCols.toLoadRect (harg2.unread x1)) (harg1.unread x0) k0_pay2 ⟨K, hlt⟩
    show (st_k0_t1 _ _ _ _ _ _ _ _ _ _ _ _ _ _ _ _ _ ((⟨K, hlt⟩ : Fin k0_t1_loop.trips).val + 1)).1 (ix2 s mm) = _
    rw [e]
    show tripR_k0_t1 _ _ _ _ _ _ _ _ _ _ _ _ _ _ _ _ ⟨K, hlt⟩ _ (ix2 s mm) = _
    rw [tripCols_apply, ih (by omega), Finset.range_add_one, Finset.inf_insert, inf_comm]
    congr 1
    refine Finset.inf_congr rfl fun r _ => ?_
    unfold dotN
    rw [dif_pos (by have := r.isLt; have := s.isLt; omega)]
    refine Finset.sum_congr rfl fun d _ => ?_
    simp only [Cert.Chamfer.Trip.rows]
    rw [rows_read, cols_read]
    congr 2
    funext a; refine Fin.ext ?_
    match a with
    | ⟨0, _⟩ => rfl
    | ⟨1, _⟩ => show 256 * K + (r.val * 8 + s.val) = K * 256 + r.val * 8 + s.val; omega
    | ⟨2, _⟩ => rfl

/-- The function of the scratch index that every stored row block restricts: the row's products against the
    columns, minimized over the 32 lane groups. -/
def scrFn (y : S4096x128.Idx) : EReal :=
  Finset.univ.inf fun g : Fin 32 => ∑ d : Fin 8, x0 (ix3 0 (y 0) d) * x1 (ix3 0 d (⟨g.val * 128 + (y 1).val, by have := idx2_lt1 y; have := g.isLt; omega⟩ : Fin 4096))

theorem pieces_agree (K : ℕ) (hK : K ≤ 16) :
    ∀ p ∈ (stAt c i arg1 harg1 arg2 harg2 arg3 harg3 arg4 harg4 arg5 harg5 x0 x1 K).2, ∀ x : p.1.shape.Idx, p.2 x = scrFn x0 x1 (p.1.emb x) := by
  induction K with
  | zero => intro p hp; exact absurd hp List.not_mem_nil
  | succ K ih =>
    have hlt : K < k0_t1_loop.trips := by rw [loop_trips]; omega
    have e := st_k0_t1_succ (F := Ideal) Variants.none c none i arg1 harg1 arg2 harg2 arg3 harg3 arg4 harg4 arg5 harg5
      (View.readAt (Elt Ideal) arg2.view rCols.toLoadRect (harg2.unread x1)) (harg1.unread x0) k0_pay2 ⟨K, hlt⟩
    intro p hp
    have hp' : p ∈ (st_k0_t1 Variants.none c none i arg1 harg1 arg2 harg2 arg3 harg3 arg4 harg4 arg5 harg5
      (View.readAt (Elt Ideal) arg2.view rCols.toLoadRect (harg2.unread x1)) (harg1.unread x0) k0_pay2 ((⟨K, hlt⟩ : Fin k0_t1_loop.trips).val + 1)).2 := hp
    rw [e] at hp'
    rcases List.mem_append.mp hp' with h1 | h2
    · rw [tripRows_eq] at h1
      obtain rfl := List.mem_singleton.mp h1
      intro x
      obtain ⟨r, l, rfl⟩ : ∃ (r : Fin 256) (l : Fin 128), x = ix2 r l := ⟨x 0, x 1, eq_ix2 x⟩
      show rowPart arg1 _ _ ⟨K, hlt⟩ (ix2 r l) = _
      rw [rowPart_apply]
      unfold scrFn
      refine Finset.inf_congr rfl fun g _ => ?_
      refine Finset.sum_congr rfl fun d _ => ?_
      simp only [Cert.Chamfer.Trip.rows]
      rw [rows_read, cols_read]
      have h2 := k0_off2_eq ⟨K, hlt⟩
      congr 2
      · funext a; refine Fin.ext ?_
        match a with
        | ⟨0, _⟩ => rfl
        | ⟨1, _⟩ => show 256 * K + r.val = (k0_off2 ⟨K, hlt⟩) 0 + 1 * r.val; rw [h2]; simp
        | ⟨2, _⟩ => rfl
      · funext a; refine Fin.ext ?_
        match a with
        | ⟨0, _⟩ => rfl
        | ⟨1, _⟩ => rfl
        | ⟨2, _⟩ => show g.val * 128 + l.val = g.val * 128 + ((k0_off2 ⟨K, hlt⟩) 1 + 1 * l.val); rw [h2]; simp
    · exact ih (by omega) p h2

theorem loopEnd_eq : loopEnd c i arg1 harg1 arg2 harg2 arg3 harg3 arg4 harg4 arg5 harg5 x0 x1
    = stAt c i arg1 harg1 arg2 harg2 arg3 harg3 arg4 harg4 arg5 harg5 x0 x1 16 := by
  show st_k0_t1 _ _ _ _ _ _ _ _ _ _ _ _ _ _ _ _ _ (Scf.trips k0_t1_loop.lb k0_t1_loop.ub k0_t1_loop.st) = _
  rw [scf_trips]

theorem scratchEnd_apply (y : S4096x128.Idx) :
    scratchEnd c i arg1 harg1 arg2 harg2 arg3 harg3 arg4 harg4 arg5 harg5 x0 x1 y = scrFn x0 x1 y := by
  unfold scratchEnd
  refine View.read_writes_apply_of_pieces _ _ (scrFn x0 x1) _ ?_ y (scratch_cover c i arg1 harg1 arg2 harg2 arg3 harg3 arg4 harg4 arg5 harg5 x0 x1 y)
  rw [loopEnd_eq]
  exact pieces_agree c i arg1 harg1 arg2 harg2 arg3 harg3 arg4 harg4 arg5 harg5 x0 x1 16 le_rfl

/-- The product of row `n` of the first block with column `mm` of the second. -/
def dot (n mm : Fin 4096) : EReal := ∑ d : Fin 8, x0 (ix3 0 n d) * x1 (ix3 0 d mm)

theorem hz3 : (![0, 0, 0] : Fin 3 → Nat) = fun _ => 0 := funext fun a => by fin_cases a <;> rfl
theorem hz2 : (![0, 0] : Fin 2 → Nat) = fun _ => 0 := funext fun a => by fin_cases a <;> rfl

theorem res1_apply (j : S1x1x128.Idx) :
    res1 c i arg1 harg1 arg2 harg2 arg3 harg3 arg4 harg4 arg5 harg5 x0 x1 j
      = ∑ n : Fin 4096, max (Finset.univ.inf fun mm : Fin 4096 => dot x0 x1 n mm) 0 := by
  unfold res1
  rw [View.canon_unit_zero hz3]
  simp only [View.ld_unit_zero (S := S4096x128) hz2]
  rw [pay5_apply]
  refine Finset.sum_congr rfl fun n _ => ?_
  congr 1
  rw [← inf_lanes (fun mm => dot x0 x1 n mm)]
  refine Finset.inf_congr rfl fun l _ => ?_
  rw [scratchEnd_apply]
  rfl

theorem res2_apply (j : S1x1x128.Idx) :
    res2 c i arg1 harg1 arg2 harg2 arg3 harg3 arg4 harg4 arg5 harg5 x0 x1 j
      = ∑ mm : Fin 4096, max (Finset.univ.inf fun n : Fin 4096 => dot x0 x1 n mm) 0 := by
  unfold res2
  rw [View.canon_unit_zero hz3, pay6_apply]
  refine Finset.sum_congr rfl fun mm _ => ?_
  congr 1
  rw [loopEnd_eq]
  have := inf_rows_tiles_range (dotN x0 x1 mm)
  calc (Finset.univ.inf fun s : Fin 8 => (stAt c i arg1 harg1 arg2 harg2 arg3 harg3 arg4 harg4 arg5 harg5 x0 x1 16).1 (ix2 s mm))
      = Finset.univ.inf fun s : Fin 8 => (Finset.range 16).inf fun k => Finset.univ.inf fun r : Fin 32 => dotN x0 x1 mm (k * 256 + r.val * 8 + s.val) :=
        Finset.inf_congr rfl fun s _ => carried_at c i arg1 harg1 arg2 harg2 arg3 harg3 arg4 harg4 arg5 harg5 x0 x1 16 le_rfl s mm
    _ = Finset.univ.inf fun n : Fin 4096 => dotN x0 x1 mm n.val := this
    _ = _ := Finset.inf_congr rfl fun n _ => by unfold dotN dot; rw [dif_pos n.isLt]

end LoopValue

section Point
variable (m : (ℓ : Loc nD τ sig) → Buf (Elt Ideal) ℓ) (ρ : Dev nD → PrngReg) (c : Dev nD)

theorem cfgN : cfg0.N = 8 := N_0
/-- The batch entry a grid point works on. -/
def bOf (t : Fin cfg0.N) : Fin 8 := Fin.cast cfgN t

/-- The printed index maps, decided over the grid: every window's block at point `t` is batch entry `t`, whole on
    the other two axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem block0_apply (t : Fin cfg0.N) (n : Fin 4096) (d : Fin 8) :
    blockAt m c 0 t (ix3 0 n d) = aug1 (m ((c : Thread nD τ).loc main_arg0)) (bOf t) n d := by
  rw [← Prefix.augLeft_apply, ← entry_left m c]
  obtain ⟨e0, e1, e2, -⟩ := idx_facts t
  unfold blockAt
  show entry m c main_v16 (((cfg0.win 0).blk t).view.emb (ix3 0 n d)) = entry m c main_v16 (ix3 (bOf t) n d)
  congr 1
  funext a; apply Fin.ext
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 8 + 1 * d.val = d.val; omega

theorem block1_apply (t : Fin cfg0.N) (d : Fin 8) (mm : Fin 4096) :
    blockAt m c 1 t (ix3 0 d mm) = aug2 (m ((c : Thread nD τ).loc main_arg1)) (bOf t) mm d := by
  rw [← Prefix.augRightT_apply, ← entry_right m c]
  obtain ⟨-, -, -, e0, e1, e2, -⟩ := idx_facts t
  unfold blockAt
  show entry m c main_v20 (((cfg0.win 1).blk t).view.emb (ix3 0 d mm)) = entry m c main_v20 (ix3 (bOf t) d mm)
  congr 1
  funext a; apply Fin.ext
  match a with
  | ⟨0, _⟩ => show win0_1.index t (0 : Fin 3) * 1 + 1 * 0 = t.val; omega
  | ⟨1, _⟩ => show win0_1.index t (1 : Fin 3) * 8 + 1 * d.val = d.val; omega
  | ⟨2, _⟩ => show win0_1.index t (2 : Fin 3) * 4096 + 1 * mm.val = mm.val; omega

variable (h1 : ∀ i, ∃ r : ℝ, m ((c : Thread nD τ).loc main_arg0) i = (r : EReal)) (h2 : ∀ i, ∃ r : ℝ, m ((c : Thread nD τ).loc main_arg1) i = (r : EReal))

include h1 h2 in
theorem dot_eq (t : Fin cfg0.N) (n mm : Fin 4096) :
    dot (blockAt m c 0 t) (blockAt m c 1 t) n mm
      = pair (m ((c : Thread nD τ).loc main_arg0)) (m ((c : Thread nD τ).loc main_arg1)) (bOf t) n mm := by
  unfold dot
  simp only [block0_apply, block1_apply]
  exact dotAug_eq_pair _ _ h1 h2 _ _ _

set_option maxHeartbeats 1000000 in
include h1 h2 in
theorem res1At_apply (t : Fin cfg0.N) (j : S1x1x128.Idx) :
    res1At m c t j = ∑ n : Fin 4096, rowNear (m ((c : Thread nD τ).loc main_arg0)) (m ((c : Thread nD τ).loc main_arg1)) (bOf t) n := by
  refine (res1_apply c (grid0.coords t) (stg0 t) (hstg0 t) (stg1 t) (hstg1 t) (stg2 t) (hstg2 t) (stg3 t) (hstg3 t) scr hscr (blockAt m c 0 t) (blockAt m c 1 t) j).trans ?_
  refine Finset.sum_congr rfl fun n _ => ?_
  rw [rowNear_eq]
  congr 1
  exact Finset.inf_congr rfl fun mm _ => dot_eq m c h1 h2 t n mm

set_option maxHeartbeats 1000000 in
include h1 h2 in
theorem res2At_apply (t : Fin cfg0.N) (j : S1x1x128.Idx) :
    res2At m c t j = ∑ mm : Fin 4096, colNear (m ((c : Thread nD τ).loc main_arg0)) (m ((c : Thread nD τ).loc main_arg1)) (bOf t) mm := by
  refine (res2_apply c (grid0.coords t) (stg0 t) (hstg0 t) (stg1 t) (hstg1 t) (stg2 t) (hstg2 t) (stg3 t) (hstg3 t) scr hscr (blockAt m c 0 t) (blockAt m c 1 t) j).trans ?_
  refine Finset.sum_congr rfl fun mm _ => ?_
  rw [colNear_eq]
  congr 1
  exact Finset.inf_congr rfl fun n _ => dot_eq m c h1 h2 t n mm

/-- What the first result array ends holding: at batch entry `b`, in every lane, the sum of the first cloud's nearest distances. -/
def rowArr : S8x1x128.Idx → EReal := fun i =>
  ∑ n : Fin 4096, rowNear (m ((c : Thread nD τ).loc main_arg0)) (m ((c : Thread nD τ).loc main_arg1)) (i 0) n
/-- And the second: the sum of the second cloud's nearest distances. -/
def colArr : S8x1x128.Idx → EReal := fun i =>
  ∑ mm : Fin 4096, colNear (m ((c : Thread nD τ).loc main_arg0)) (m ((c : Thread nD τ).loc main_arg1)) (i 0) mm

include h1 h2 in
theorem wrote2 (t : Fin cfg0.N) :
    (dats m 0 c).flushed 2 t = ((cfg0.win 2).blk t).view.read (Elt Ideal) (rowArr m c) := by
  show (cfg0.win 2).cut (grid0.coords t) ((dats m 0 c).after 2 t) = _
  rw [after2]
  obtain ⟨-, -, -, -, -, -, e0, e1, e2, -⟩ := idx_facts t
  funext j
  show res1At m c t _ = rowArr m c (((cfg0.win 2).blk t).view.emb j)
  rw [res1At_apply m c h1 h2]
  unfold rowArr
  have hb : bOf t = (((cfg0.win 2).blk t).view.emb j) 0 := by
    apply Fin.ext
    show t.val = win0_2.index t (0 : Fin 3) * 1 + 1 * (j 0).val
    have hj : (j 0).val < 1 := (j 0).isLt
    omega
  rw [hb]

include h1 h2 in
theorem wrote3 (t : Fin cfg0.N) :
    (dats m 0 c).flushed 3 t = ((cfg0.win 3).blk t).view.read (Elt Ideal) (colArr m c) := by
  show (cfg0.win 3).cut (grid0.coords t) ((dats m 0 c).after 3 t) = _
  rw [after3]
  obtain ⟨-, -, -, -, -, -, -, -, -, e0, e1, e2⟩ := idx_facts t
  funext j
  show res2At m c t _ = colArr m c (((cfg0.win 3).blk t).view.emb j)
  rw [res2At_apply m c h1 h2]
  unfold colArr
  have hb : bOf t = (((cfg0.win 3).blk t).view.emb j) 0 := by
    apply Fin.ext
    show t.val = win0_3.index t (0 : Fin 3) * 1 + 1 * (j 0).val
    have hj : (j 0).val < 1 := (j 0).isLt
    omega
  rw [hb]

theorem mem_blk2 (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v21_0).slice (win0_2.rect t)).set ↔ _
  rw [View.set_slice_whole, Rect.mem_set_unit]
  exact Iff.rfl
theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v21_1).slice (win0_3.rect t)).set ↔ _
  rw [View.set_slice_whole, Rect.mem_set_unit]
  exact Iff.rfl

theorem cover2 (i : S8x1x128.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 128 := (i 2).isLt
  have hN : (i 0).val < cfg0.N := by rw [cfgN]; exact hi0
  refine ⟨⟨(i 0).val, hN⟩, flush0_2 _, ?_⟩
  rw [mem_blk2]
  obtain ⟨-, -, -, -, -, -, e0, e1, e2, -⟩ := idx_facts ⟨(i 0).val, hN⟩
  have e0' : win0_2.index ⟨(i 0).val, hN⟩ (0 : Fin 3) = (i 0).val := e0
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 128 ≤ (i 2).val ∧ (i 2).val < win0_2.index _ (2 : Fin 3) * 128 + 128; rw [e2]; omega
theorem cover3 (i : S8x1x128.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 128 := (i 2).isLt
  have hN : (i 0).val < cfg0.N := by rw [cfgN]; exact hi0
  refine ⟨⟨(i 0).val, hN⟩, flush0_3 _, ?_⟩
  rw [mem_blk3]
  obtain ⟨-, -, -, -, -, -, -, -, -, e0, e1, e2⟩ := idx_facts ⟨(i 0).val, hN⟩
  have e0' : win0_3.index ⟨(i 0).val, hN⟩ (0 : Fin 3) = (i 0).val := e0
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 128 ≤ (i 2).val ∧ (i 2).val < win0_3.index _ (2 : Fin 3) * 128 + 128; rw [e2]; omega

include h1 h2 in
theorem final2 : (dats m 0 c).arrAt 2 cfg0.N = rowArr m c :=
  (dats m 0 c).arrAt_eq_of_cover 2 (rowArr m c) (fun t _ => wrote2 m c h1 h2 t) cover2
include h1 h2 in
theorem final3 : (dats m 0 c).arrAt 3 cfg0.N = colArr m c :=
  (dats m 0 c).arrAt_eq_of_cover 3 (colArr m c) (fun t _ => wrote3 m c h1 h2 t) cover3

theorem tail_of (V0 : Valuation τ sig (Elt Ideal)) :
    (StableHlo.after (hostOps1 (F := Ideal)) V0 (Proc.devRef .tc main_v30) : FVec Ideal S_ .f32)
      = Tail.tail (V0 (Proc.devRef .tc main_v21_0)) (V0 (Proc.devRef .tc main_v21_1)) := by
  open StableHlo in after_results
  rfl

include h1 h2 in
/-- The program's result: the chamfer distance of the two clouds. -/
theorem result_eq :
    Pipeline.afterTail₀ cfgs (dats m) 0 (entry0 m) [hostOps1] c main_v30
      = fun _ => chamfer (m ((c : Thread nD τ).loc main_arg0)) (m ((c : Thread nD τ).loc main_arg1)) := by
  unfold Pipeline.afterTail₀
  show StableHlo.after hostOps1 _ (Proc.devRef .tc main_v30) = _
  rw [tail_of]
  have a2 := Pipeline.withArrays_arr (nD := nD) (τ := τ) spec0 launch0.win.arr_inj c (entry0 m c) (fun w => (dats m 0 c).arrAt w cfg0.N) 2
  have a3 := Pipeline.withArrays_arr (nD := nD) (τ := τ) spec0 launch0.win.arr_inj c (entry0 m c) (fun w => (dats m 0 c).arrAt w cfg0.N) 3
  funext j
  rw [Tail.tail_apply]
  unfold chamfer
  congr 2
  · refine Finset.sum_congr rfl fun b _ => ?_
    exact (congrFun a2 _).trans (congrFun (final2 m c h1 h2) _)
  · refine Finset.sum_congr rfl fun b _ => ?_
    exact (congrFun a3 _).trans (congrFun (final3 m c h1 h2) _)

end Point

end Cert.KernelIdeal.Hand
end
-- ==== Proof.Finite.lean ====
/-
  From the precondition "every entry of both argument arrays has absolute value below +inf" to "every entry is a
  real": the predicate is the conjunction of two reductions by "and" over all axes, each of which is one only if
  every compared element is; and an extended real whose absolute value is below the top element is a real.
-/
import proofs.«119373_g85555748536873_cont_9to1_m_146_14_alg».proof.Pre_finite_inputs
import proofs.«119373_g85555748536873_cont_9to1_m_146_14_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.Chamfer

open Cert.Pre_finite_inputs

/-- The scalar shape has one index. -/
instance subsingleton_scalar_idx : Subsingleton Cert.Pre_finite_inputs.S_.Idx := ⟨fun a b => funext fun d => d.elim0⟩

/-- An extended real whose absolute value compares below `+inf` is a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have ht : Ideal.ofBits .f32 0x7F800000#32 = (⊤ : EReal) := by simp [Ideal.ofBits, Ideal.ieee]
  rw [Ideal.cmpf_def, Ideal.hostAbsf_def, Ideal.absf_def, Ideal.ofBits_def, ht] at h
  induction x using EReal.rec with
  | bot => simp [Ideal.cmp] at h
  | coe r => exact ⟨r, rfl⟩
  | top => simp [Ideal.cmp] at h

/-- Under the precondition every entry of both argument arrays is a real. -/
theorem real_of_pre [Cert.Pre_finite_inputs.Facts] (a0 a1 : FVec Ideal Cert.Pre_finite_inputs.S8x4096x3 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨h1, h2⟩ := IntOp.andi_eq_one.1 h0
  refine ⟨fun i => real_of_abs_lt _ ?_, fun i => real_of_abs_lt _ ?_⟩
  · have e := Host.reduce_andi_all _ _ _ _ _ h1 i
    rw [cmpf_apply, broadcastInDim_apply _ _ _ i ix0 (fun a => a.elim0)] at e
    exact e
  · have e := Host.reduce_andi_all _ _ _ _ _ h2 i
    rw [cmpf_apply, broadcastInDim_apply _ _ _ i ix0 (fun a => a.elim0)] at e
    exact e

end Cert.Chamfer

end
-- ==== Proof.lean ====
/-
  The certificate of the chamfer-distance kernel against its reference. Both programs, read over the extended reals
  from finite point clouds, end at one number: for every batch entry, the mean over the first cloud's points of the
  squared distance to the nearest point of the second cloud, plus the same mean the other way round. The kernel
  forms the pairwise squared distances `‖p‖² + ‖q‖² − 2⟨p, q⟩` as one product of coordinates augmented by the
  squared norms and ones, takes the row and column minima tile by tile, clamps them at zero and sums; the reference
  clamps the whole matrix, takes the minima and averages. Clamping commutes with a minimum, and the tiling only
  re-brackets the minima and the sums. Each program also runs to the end without a fault and leaves the two clouds
  unchanged; the idealization rewrote nothing.
-/
import proofs.«119373_g85555748536873_cont_9to1_m_146_14_alg».proof.Defs
import proofs.«119373_g85555748536873_cont_9to1_m_146_14_alg».proof.Proof.Gen.Kernel
import proofs.«119373_g85555748536873_cont_9to1_m_146_14_alg».proof.Proof.Gen.KernelIdeal
import proofs.«119373_g85555748536873_cont_9to1_m_146_14_alg».proof.Proof.Gen.ReferenceIdeal
import proofs.«119373_g85555748536873_cont_9to1_m_146_14_alg».proof.Proof.Gen.Pre_finite_inputs
import proofs.«119373_g85555748536873_cont_9to1_m_146_14_alg».proof.Proof.Gen.ReferenceIdeal.Read
import proofs.«119373_g85555748536873_cont_9to1_m_146_14_alg».proof.Proof.BodyBits
import proofs.«119373_g85555748536873_cont_9to1_m_146_14_alg».proof.Proof.KernelValue
import proofs.«119373_g85555748536873_cont_9to1_m_146_14_alg».proof.Proof.RefValue
import proofs.«119373_g85555748536873_cont_9to1_m_146_14_alg».proof.Proof.Finite

noncomputable section

namespace Cert.Proof

open Idealize.ShloMosaic Idealize.ShloMosaic.TcCoe Idealize.SL.Sem

/-- The kernel as printed runs to the end, faults nowhere and leaves both clouds as launched. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The ideal pass rewrote no operation of the kernel. -/
theorem preserves : Cert.preserves_Kernel_KernelIdeal := trivial

/-- From finite clouds both idealized programs end at the chamfer distance of the clouds. -/
theorem algebraic : Cert.algebraic_KernelIdeal_ReferenceIdeal := by
  intro m ρ m' ρ' hpre hagree
  have hfin := fun c => Cert.Chamfer.real_of_pre _ _ (hpre c)
  refine ⟨fun c => fun _ => Cert.Chamfer.chamfer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · exact ((h c).2 Cert.KernelIdeal.main_v30 (Pipeline.mem_restRefs_of Cert.KernelIdeal.main_v30 (by decide) (by decide))).trans
        (Cert.KernelIdeal.Hand.result_eq m c (hfin c).1 (hfin c).2)
    · exact ((h c).2 Cert.KernelIdeal.main_arg0 (Pipeline.mem_restRefs_of Cert.KernelIdeal.main_arg0 (by decide) (by decide))).trans
        (Cert.KernelIdeal.Hand.exit_arg0 m (Cert.KernelIdeal.Hand.dats m) c)
    · exact ((h c).2 Cert.KernelIdeal.main_arg1 (Pipeline.mem_restRefs_of Cert.KernelIdeal.main_arg1 (by decide) (by decide))).trans
        (Cert.KernelIdeal.Hand.exit_arg1 m (Cert.KernelIdeal.Hand.dats m) c)
  · refine (θ_run Cert.ReferenceIdeal.defs _ _).mono (fun _ h c => ⟨(h c).1.trans ?_, (h c).2⟩) (Cert.Chamfer.Ref.ref_run m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Chamfer.Ref.frame_ri, preserves, algebraic⟩

end Cert.Proof

end
